-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x2 : Shape := ⟨2, ![50000, 2]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S5000x2 : Shape := ⟨2, ![5000, 2]⟩
abbrev S50000x16 : Shape := ⟨2, ![50000, 16]⟩
abbrev S5000x16 : Shape := ⟨2, ![5000, 16]⟩
abbrev S600000x16 : Shape := ⟨2, ![600000, 16]⟩
abbrev S1x16 : Shape := ⟨2, ![1, 16]⟩

abbrev nBuf : Space → Nat
  | .hbm => 91
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x2, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x16, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x16, .f32⟩
  | .hbm, ⟨85, _⟩ => ⟨S_, .f32⟩
  | .hbm, ⟨86, _⟩ => ⟨S50000x16, .f32⟩
  | .hbm, ⟨87, _⟩ => ⟨S600000x1, .i32⟩
  | .hbm, ⟨88, _⟩ => ⟨S50000x16, .f32⟩
  | .hbm, ⟨89, _⟩ => ⟨S1x16, .f32⟩
  | .hbm, ⟨90, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x2, .f32⟩
  | .local _ .vmem, ⟨9, _⟩ => ⟨S5000x2, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x2, .f32⟩
  | .local _ .vmem, ⟨17, _⟩ => ⟨S5000x2, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x1, .f32⟩
  | .local _ .vmem, ⟨30, _⟩ => ⟨S5000x1, .f32⟩
  | .local _ .vmem, ⟨31, _⟩ => ⟨S1x16, .f32⟩
  | .local _ .vmem, ⟨32, _⟩ => ⟨S5000x16, .f32⟩
  | .local _ .vmem, ⟨33, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  gather_S50000x16_S600000x1_S600000x16_1_0_n_n_0_1_116_wf : GatherDims.WF S50000x16 S600000x1 S600000x16 [1] [0] [] [0] [] 1 ![1, 16]
  scatter_S50000x16_S600000x1_S600000x16_1_0_0_1_wf : ScatterDims.WF S50000x16 S600000x1 S600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S50000x2.size a
  hwx2_1 : ∀ i : grid2.Coords, EltTy.bits .f32 = 32 ∨ (Rect.block (s := S50000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S50000x16.size a
  hwx4_0 : ∀ i : grid4.Coords, EltTy.bits .f32 = 32 ∨ (Rect.block (s := S50000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S50000x16.size a
  hwx4_3 : ∀ i : grid4.Coords, EltTy.bits .f32 = 32 ∨ (Rect.block (s := S50000x16) S5000x16.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S600000x1_S600000x16_1_0_n_n_0_1_116 : GatherDims S50000x16 S600000x1 S600000x16 where
  offsetDims := [1]
  collapsedSliceDims := [0]
  operandBatchingDims := []
  startIndicesBatchingDims := []
  startIndexMap := [0]
  indexVectorDim := 1
  sliceSizes := ![1, 16]
  wf := gather_S50000x16_S600000x1_S600000x16_1_0_n_n_0_1_116_wf
def scatter_S50000x16_S600000x1_S600000x16_1_0_0_1 : ScatterDims S50000x16 S600000x1 S600000x16 where
  updateWindowDims := [1]
  insertedWindowDims := [0]
  scatterDimsToOperandDims := [0]
  indexVectorDim := 1
  wf := scatter_S50000x16_S600000x1_S600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x16 : Shape := ⟨2, ![50000, 16]⟩
abbrev S600000x16 : Shape := ⟨2, ![600000, 16]⟩
abbrev S1x16 : Shape := ⟨2, ![1, 16]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x16, .f32⟩
  | .hbm, ⟨94, _⟩ => ⟨S_, .i32⟩
  | .hbm, ⟨95, _⟩ => ⟨S600000, .i32⟩
  | .hbm, ⟨96, _⟩ => ⟨S600000, .i1⟩
  | .hbm, ⟨97, _⟩ => ⟨S_, .i32⟩
  | .hbm, ⟨98, _⟩ => ⟨S600000, .i32⟩
  | .hbm, ⟨99, _⟩ => ⟨S600000, .i32⟩
  | .hbm, ⟨100, _⟩ => ⟨S600000, .i32⟩
  | .hbm, ⟨101, _⟩ => ⟨S600000x1, .i32⟩
  | .hbm, ⟨102, _⟩ => ⟨S600000x16, .f32⟩
  | .hbm, ⟨103, _⟩ => ⟨S_, .f32⟩
  | .hbm, ⟨104, _⟩ => ⟨S50000x16, .f32⟩
  | .hbm, ⟨105, _⟩ => ⟨S600000x1, .i32⟩
  | .hbm, ⟨106, _⟩ => ⟨S50000x16, .f32⟩
  | .hbm, ⟨107, _⟩ => ⟨S50000x16, .f32⟩
  | .hbm, ⟨108, _⟩ => ⟨S50000x16, .f32⟩
  | .hbm, ⟨109, _⟩ => ⟨S1x16, .f32⟩
  | .hbm, ⟨110, _⟩ => ⟨S50000x16, .f32⟩
  | .hbm, ⟨111, _⟩ => ⟨S50000x16, .f32⟩
  | .hbm, ⟨112, _⟩ => ⟨S50000x16, .f32⟩
  | .hbm, ⟨113, _⟩ => ⟨S50000x16, .f32⟩
  | .hbm, ⟨114, _⟩ => ⟨S_, .f32⟩
  | .hbm, ⟨115, _⟩ => ⟨S50000x16, .f32⟩
  | .hbm, ⟨116, _⟩ => ⟨S50000x16, .f32⟩
  | .hbm, ⟨117, _⟩ => ⟨S_, .f32⟩
  | .hbm, ⟨118, _⟩ => ⟨S50000x16, .f32⟩
  | .hbm, ⟨119, _⟩ => ⟨S50000x16, .f32⟩
  | .hbm, ⟨120, _⟩ => ⟨S_, .f32⟩
  | .hbm, ⟨121, _⟩ => ⟨S50000x16, .f32⟩
  | .hbm, ⟨122, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call3_cst : Ref sig .tc := ⟨.hbm, 88, rfl⟩
abbrev main_call3_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩
abbrev main_v82 : Ref sig .tc := ⟨.hbm, 119, rfl⟩
abbrev main_cst_18 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  gather_S50000x16_S600000x1_S600000x16_1_0_n_n_0_1_116_wf : GatherDims.WF S50000x16 S600000x1 S600000x16 [1] [0] [] [0] [] 1 ![1, 16]
  scatter_S50000x16_S600000x1_S600000x16_1_0_0_1_wf : ScatterDims.WF S50000x16 S600000x1 S600000x16 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S600000x1_S600000x16_1_0_n_n_0_1_116 : GatherDims S50000x16 S600000x1 S600000x16 where
  offsetDims := [1]
  collapsedSliceDims := [0]
  operandBatchingDims := []
  startIndicesBatchingDims := []
  startIndexMap := [0]
  indexVectorDim := 1
  sliceSizes := ![1, 16]
  wf := gather_S50000x16_S600000x1_S600000x16_1_0_n_n_0_1_116_wf
def scatter_S50000x16_S600000x1_S600000x16_1_0_0_1 : ScatterDims S50000x16 S600000x1 S600000x16 where
  updateWindowDims := [1]
  insertedWindowDims := [0]
  scatterDimsToOperandDims := [0]
  indexVectorDim := 1
  wf := scatter_S50000x16_S600000x1_S600000x16_1_0_0_1_wf

class Facts : Prop extends Facts₀ where

variable [Facts]
-- ==== Proof.KernelRun.lean ====
/-
  The idealized kernel's run with its result NAMED. @main is five pallas_calls among stretches of host operations; the
  contents of the TensorCore's buffers at each boundary are a fold from the launch memory (`Gen.W0` … `Gen.W13`: a
  stretch applies its operations, a call leaves its arrays at what its write-backs leave and every other buffer alone).
  Every weakly fair execution terminates with EVERY unscoped buffer at the last boundary's contents `Gen.W13`: in
  particular the program's result, and the nine arguments, which the fold never writes.
-/
import proofs.«157035_j71597104824805_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and the argument arrays as launched: the launch over the segments,
    the last thread state (every unscoped buffer at `W13`) read against the final state. -/
theorem run_result : θ_run defs (onTc (τ := τ) (main (F := F))) ⟨m, fun _ => 0, ρ⟩ (fun r => ∀ c : Dev nD,
      r.2.mem ((c.tc : Thread nD τ).loc main_v59) = W13 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v59 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Run

end
-- ==== Proof.KernelHost.lean ====
/-
  The host operations that the idealized kernel's host code shares with the other program of this certificate, as named functions of whole arrays:
  * `degNorm x`: for every node the number `d` of entries of the edge-end list `x` that name it (ones scatter-added to the
    named nodes), then `d^(-1/2)` where `d > 0` (the root's argument is `max d 1`) and zero where `d = 0`, as a column;
  * `srcIdx x`: the list of source nodes as a gather reads it (a negative entry counted from the end);
  * `aggregate H x1 x2` (rows of 128 entries) and `aggregate' H x1 x2` (rows of 16): row `x1 e` of `H` gathered for every
    edge `e` and scatter-added into row `x2 e` of a zero array.
-/
import proofs.«157035_j71597104824805_1_alg».proof.Proof.Gen.KernelIdeal
import Idealize.ShloMosaic.PureOps.Ideal

noncomputable section

namespace Cert.KernelIdeal.Host

open Cert.KernelIdeal Cert.KernelIdeal.Facts₀ Idealize.ShloMosaic

/-- The per-node scale of one side of the edges. -/
def degNorm (x : IVec S600000 32) : FVec Ideal S50000x1 .f32 :=
  broadcastInDim S50000x1 ![0] bcast_S50000_S50000x1_0 (select (cmpf (F := Ideal) .ogt (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x) (broadcastInDim S600000 ![] bcast_S_S600000 (constant (F := Ideal) S_ .f32 0x3F800000#32))) (broadcastInDim S50000 ![] bcast_S_S50000 (constant (F := Ideal) S_ .f32 0x00000000#32))) (Host.rsqrt (F := Ideal) (maximumf (F := Ideal) (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x) (broadcastInDim S600000 ![] bcast_S_S600000 (constant (F := Ideal) S_ .f32 0x3F800000#32))) (broadcastInDim S50000 ![] bcast_S_S50000 (constant (F := Ideal) S_ .f32 0x3F800000#32)))) (broadcastInDim S50000 ![] bcast_S_S50000 (id (constant (F := Ideal) S_ .f32 0x00000000#32))))

/-- The source nodes as the gather's start indices. -/
def srcIdx (x1 : IVec S600000 32) : IVec S600000x1 32 :=
  broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 50000#32))) x1)

/-- Aggregation along the edges, rows of 128 entries. -/
def aggregate (H : FVec Ideal S50000x128 .f32) (x1 x2 : IVec S600000 32) :
    FVec Ideal S50000x128 .f32 :=
  Host.scatterAdd (F := Ideal) scatter_S50000x128_S600000x1_S600000x128_1_0_0_1 (broadcastInDim S50000x128 ![] bcast_S_S50000x128 (constant (F := Ideal) S_ .f32 0x00000000#32)) (broadcastInDim S600000x1 ![0] bcast_S600000_S600000x1_0 x2) (Host.gather gather_S50000x128_S600000x1_S600000x128_1_0_n_n_0_1_1128 H (srcIdx x1))

/-- Aggregation along the edges, rows of 16 entries. -/
def aggregate' (H : FVec Ideal S50000x16 .f32) (x1 x2 : IVec S600000 32) :
    FVec Ideal S50000x16 .f32 :=
  Host.scatterAdd (F := Ideal) scatter_S50000x16_S600000x1_S600000x16_1_0_0_1 (broadcastInDim S50000x16 ![] bcast_S_S50000x16 (constant (F := Ideal) S_ .f32 0x00000000#32)) (broadcastInDim S600000x1 ![0] bcast_S600000_S600000x1_0 x2) (Host.gather gather_S50000x16_S600000x1_S600000x16_1_0_n_n_0_1_116 H (srcIdx x1))

end Cert.KernelIdeal.Host

end
-- ==== Proof.KernelPrologue.lean ====
/-
  The host prologue of the idealized kernel, one stretch of host operations at a time, each read back over ARBITRARY
  starting contents `V` so that every term stays as small as one stretch: the count of edges at each node, its
  comparison with zero and the inverse root of its maximum with one (first stretch, from the list of sources; the
  list of destinations only counted), the selection between the inverse root and zero (a called function), the same for
  the destinations, and the two columns of scales laid side by side. Composed, the prologue leaves `degNorm` of the
  sources, `degNorm` of the destinations, and the two side by side.
-/
import proofs.«157035_j71597104824805_1_alg».proof.Proof.Gen.KernelIdeal.Frame
import proofs.«157035_j71597104824805_1_alg».proof.Proof.KernelHost
import Idealize.ShloMosaic.Lib.StableHlo.Run

set_option maxRecDepth 16384
-- the local notations below mention the section variables
set_option quotPrecheck false

noncomputable section

namespace Cert.KernelIdeal.Chain

open Cert.KernelIdeal Cert.KernelIdeal.Gen Idealize.ShloMosaic Idealize.ShloMosaic.TcCoe
open Idealize.SL.Sem Idealize.ShloMosaic.StableHlo

section Stretches

variable (V : Valuation τ sig (Elt Ideal))

/-! ## First stretch: the counts, and the sources' comparison and inverse root -/

/-- Where a node has an edge leaving it. -/
theorem s0_v8 : StableHlo.after hostOps0 V (Proc.devRef .tc main_v8) = cmpf (F := Ideal) .ogt (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 (V (Proc.devRef .tc main_arg1))) (broadcastInDim S600000 ![] bcast_S_S600000 (constant (F := Ideal) S_ .f32 0x3F800000#32))) (broadcastInDim S50000 ![] bcast_S_S50000 (constant (F := Ideal) S_ .f32 0x00000000#32)) := by
  after_results_simp
  all_goals rfl

/-- The inverse root of the number of edges leaving a node, at least one. -/
theorem s0_v11 : StableHlo.after hostOps0 V (Proc.devRef .tc main_v11) = Host.rsqrt (F := Ideal) (maximumf (F := Ideal) (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 (V (Proc.devRef .tc main_arg1))) (broadcastInDim S600000 ![] bcast_S_S600000 (constant (F := Ideal) S_ .f32 0x3F800000#32))) (broadcastInDim S50000 ![] bcast_S_S50000 (constant (F := Ideal) S_ .f32 0x3F800000#32))) := by
  after_results_simp
  all_goals rfl

theorem s0_cst4 : StableHlo.after hostOps0 V (Proc.devRef .tc main_cst_4) = constant (F := Ideal) S_ .f32 0x00000000#32 := by
  after_results_simp
  all_goals rfl

/-- The number of edges entering a node. -/
theorem s0_v6 : StableHlo.after hostOps0 V (Proc.devRef .tc main_v6) = (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 (V (Proc.devRef .tc main_arg2))) (broadcastInDim S600000 ![] bcast_S_S600000 (constant (F := Ideal) S_ .f32 0x3F800000#32))) := by
  after_results_simp
  all_goals rfl

/-! ## Second stretch: the sources' selection -/

theorem s1_v12 : StableHlo.after hostOps0_1 V (Proc.devRef .tc main_v12) = select (V (Proc.devRef .tc main_v8)) (V (Proc.devRef .tc main_v11)) (broadcastInDim S50000 ![] bcast_S_S50000 (id (V (Proc.devRef .tc main_cst_4)))) := by
  after_results_simp
  all_goals rfl

theorem s1_v6 : StableHlo.after hostOps0_1 V (Proc.devRef .tc main_v6) = V (Proc.devRef .tc main_v6) := by
  after_results_simp
  all_goals rfl

/-! ## Third stretch: the sources' column; the destinations' comparison and inverse root -/

theorem s2_v13 : StableHlo.after hostOps0_2 V (Proc.devRef .tc main_v13) = broadcastInDim S50000x1 ![0] bcast_S50000_S50000x1_0 (V (Proc.devRef .tc main_v12)) := by
  after_results_simp
  all_goals rfl

theorem s2_v15 : StableHlo.after hostOps0_2 V (Proc.devRef .tc main_v15) = cmpf (F := Ideal) .ogt (V (Proc.devRef .tc main_v6)) (broadcastInDim S50000 ![] bcast_S_S50000 (constant (F := Ideal) S_ .f32 0x00000000#32)) := by
  after_results_simp
  all_goals rfl

theorem s2_v18 : StableHlo.after hostOps0_2 V (Proc.devRef .tc main_v18) = Host.rsqrt (F := Ideal) (maximumf (F := Ideal) (V (Proc.devRef .tc main_v6)) (broadcastInDim S50000 ![] bcast_S_S50000 (constant (F := Ideal) S_ .f32 0x3F800000#32))) := by
  after_results_simp
  all_goals rfl

theorem s2_cst7 : StableHlo.after hostOps0_2 V (Proc.devRef .tc main_cst_7) = constant (F := Ideal) S_ .f32 0x00000000#32 := by
  after_results_simp
  all_goals rfl

/-! ## Fourth stretch: the destinations' selection -/

theorem s3_v19 : StableHlo.after hostOps0_3 V (Proc.devRef .tc main_v19) = select (V (Proc.devRef .tc main_v15)) (V (Proc.devRef .tc main_v18)) (broadcastInDim S50000 ![] bcast_S_S50000 (id (V (Proc.devRef .tc main_cst_7)))) := by
  after_results_simp
  all_goals rfl

theorem s3_v13 : StableHlo.after hostOps0_3 V (Proc.devRef .tc main_v13) = V (Proc.devRef .tc main_v13) := by
  after_results_simp
  all_goals rfl

/-! ## Fifth stretch: the destinations' column and the two columns side by side -/

theorem s4_v20 : StableHlo.after hostOps0_4 V (Proc.devRef .tc main_v20) = broadcastInDim S50000x1 ![0] bcast_S50000_S50000x1_0 (V (Proc.devRef .tc main_v19)) := by
  after_results_simp
  all_goals rfl

theorem s4_v13 : StableHlo.after hostOps0_4 V (Proc.devRef .tc main_v13) = V (Proc.devRef .tc main_v13) := by
  after_results_simp
  all_goals rfl

theorem s4_v21 : StableHlo.after hostOps0_4 V (Proc.devRef .tc main_v21) = concatenate S50000x2 1 [⟨S50000x1, (V (Proc.devRef .tc main_v13))⟩, ⟨S50000x1, broadcastInDim S50000x1 ![0] bcast_S50000_S50000x1_0 (V (Proc.devRef .tc main_v19))⟩] concatenates_S50000x1_S50000x1_S50000x2_d1 := by
  after_results_simp
  all_goals rfl

end Stretches

/-! ## The prologue composed -/

variable (m : (ℓ : Loc nD τ sig) → Buf (Elt Ideal) ℓ) (ρ : Dev nD → PrngReg) (c : Dev nD)

local notation "x1" => m ((c : Thread nD τ).loc main_arg1)
local notation "x2" => m ((c : Thread nD τ).loc main_arg2)

/-- The launch contents of the list of sources. -/
theorem w0_arg1 : W0 m ρ c (Proc.devRef .tc main_arg1) = x1 := rfl
/-- The launch contents of the list of destinations. -/
theorem w0_arg2 : W0 m ρ c (Proc.devRef .tc main_arg2) = x2 := rfl

/-- The row of source-side scales after the second stretch. -/
theorem w2_v12 : W2 m ρ c (Proc.devRef .tc main_v12)
    = select (cmpf (F := Ideal) .ogt (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S50000 ![] bcast_S_S50000 (constant (F := Ideal) S_ .f32 0x00000000#32))) (Host.rsqrt (F := Ideal) (maximumf (F := Ideal) (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S50000 ![] bcast_S_S50000 (constant (F := Ideal) S_ .f32 0x3F800000#32))))
        (broadcastInDim S50000 ![] bcast_S_S50000 (id (constant (F := Ideal) S_ .f32 0x00000000#32))) := by
  refine (s1_v12 (W1 m ρ c)).trans ?_
  rw [show W1 m ρ c (Proc.devRef .tc main_v8) = _ from s0_v8 (W0 m ρ c), show W1 m ρ c (Proc.devRef .tc main_v11) = _ from s0_v11 (W0 m ρ c),
    show W1 m ρ c (Proc.devRef .tc main_cst_4) = _ from s0_cst4 (W0 m ρ c), w0_arg1]

/-- The column of source-side scales after the third stretch. -/
theorem w3_v13 : W3 m ρ c (Proc.devRef .tc main_v13) = Host.degNorm x1 := by
  refine (s2_v13 (W2 m ρ c)).trans ?_
  rw [w2_v12]
  rfl

/-- The count of edges entering each node, kept through the second stretch. -/
theorem w2_v6 : W2 m ρ c (Proc.devRef .tc main_v6) = (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x2) (broadcastInDim S600000 ![] bcast_S_S600000 (constant (F := Ideal) S_ .f32 0x3F800000#32))) := by
  refine (s1_v6 (W1 m ρ c)).trans ((s0_v6 (W0 m ρ c)).trans ?_)
  rw [w0_arg2]

/-- The row of destination-side scales after the fourth stretch. -/
theorem w4_v19 : W4 m ρ c (Proc.devRef .tc main_v19)
    = select (cmpf (F := Ideal) .ogt (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x2) (broadcastInDim S600000 ![] bcast_S_S600000 (constant (F := Ideal) S_ .f32 0x3F800000#32))) (broadcastInDim S50000 ![] bcast_S_S50000 (constant (F := Ideal) S_ .f32 0x00000000#32))) (Host.rsqrt (F := Ideal) (maximumf (F := Ideal) (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x2) (broadcastInDim S600000 ![] bcast_S_S600000 (constant (F := Ideal) S_ .f32 0x3F800000#32))) (broadcastInDim S50000 ![] bcast_S_S50000 (constant (F := Ideal) S_ .f32 0x3F800000#32))))
        (broadcastInDim S50000 ![] bcast_S_S50000 (id (constant (F := Ideal) S_ .f32 0x00000000#32))) := by
  refine (s3_v19 (W3 m ρ c)).trans ?_
  rw [show W3 m ρ c (Proc.devRef .tc main_v15) = _ from s2_v15 (W2 m ρ c), show W3 m ρ c (Proc.devRef .tc main_v18) = _ from s2_v18 (W2 m ρ c),
    show W3 m ρ c (Proc.devRef .tc main_cst_7) = _ from s2_cst7 (W2 m ρ c), w2_v6]

/-- The column of source-side scales, kept through the fourth stretch. -/
theorem w4_v13 : W4 m ρ c (Proc.devRef .tc main_v13) = Host.degNorm x1 :=
  (s3_v13 (W3 m ρ c)).trans (w3_v13 m ρ c)

/-- The column of source-side scales after the prologue. -/
theorem v13_5 : W5 m ρ c (Proc.devRef .tc main_v13) = Host.degNorm x1 :=
  (s4_v13 (W4 m ρ c)).trans (w4_v13 m ρ c)

/-- The column of destination-side scales after the prologue. -/
theorem v20_5 : W5 m ρ c (Proc.devRef .tc main_v20) = Host.degNorm x2 := by
  refine (s4_v20 (W4 m ρ c)).trans ?_
  rw [w4_v19]
  rfl

/-- The two columns side by side after the prologue. -/
theorem v21_5 : W5 m ρ c (Proc.devRef .tc main_v21)
    = concatenate S50000x2 1 [⟨S50000x1, Host.degNorm x1⟩, ⟨S50000x1, Host.degNorm x2⟩] concatenates_S50000x1_S50000x1_S50000x2_d1 := by
  refine (s4_v21 (W4 m ρ c)).trans ?_
  rw [w4_v13, w4_v19]
  rfl

end Cert.KernelIdeal.Chain

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.LibGraphConv.lean ====
/-
  The layers of a graph convolution network with symmetric degree normalisation, each as ONE function of whole arrays on
  the extended reals, generic in the extents, and each read in two spellings: the vector unit's (on a block of rows,
  at an index) and the host's (on the whole array).

  With `s`, `ns`, `nd` per-row scales given as functions of the row (a kernel receives them as columns of an array,
  the host as `[n, 1]` arrays: either way one number per row):
  * `scaleRows X s`: row `r` of `X` times `s r`;
  * `convLayer A ns nd W b`: row `r` of the aggregated features `A` is scaled by `nd r`, multiplied by the weight
    matrix, shifted by the bias, rectified, and scaled by `ns r` (the scale the NEXT layer applies before it aggregates);
  * `project X W`: the plain matrix product;
  * `biasAct A nd b ε`: `logistic (A (r, c) · nd r + b c) + ε`.
  Every entry of a result depends on ONE row of the row-indexed operands, which is why a kernel may compute a block of
  rows from the same block of rows of its operands. No entry is asked to be finite: each spelling is the same
  expression in the same order, so nothing is rearranged.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«157035_j71597104824805_1_alg».proof.Proof.LibPlainDot
import proofs.«157035_j71597104824805_1_alg».proof.Proof.LibColumns
import proofs.«157035_j71597104824805_1_alg».proof.Proof.LibHostRead

noncomputable section

open scoped BigOperators

namespace Cert.Proof.GraphConv

open Idealize.ShloMosaic Idealize.ShloMosaic.ValueIdx

/-! ## The layers as functions of whole arrays -/

/-- Row `r` of `X` times the scale of row `r`. -/
def scaleRows {n d : ℕ} (X : FVec Ideal ⟨2, ![n, d]⟩ .f32) (s : Fin n → EReal) : FVec Ideal ⟨2, ![n, d]⟩ .f32 :=
  fun i => X i * s (i 0)

/-- One convolution layer after aggregation: `max ((∑ j, (A (r, j) · nd r) · W (j, c)) + b c) 0 · ns r`. -/
def convLayer {n k d : ℕ} (A : FVec Ideal ⟨2, ![n, k]⟩ .f32) (ns nd : Fin n → EReal)
    (W : FVec Ideal ⟨2, ![k, d]⟩ .f32) (b : Fin d → EReal) : FVec Ideal ⟨2, ![n, d]⟩ .f32 :=
  fun i => max ((∑ j : Fin k, (A (ix2 (i 0) j) * nd (i 0)) * W (ix2 j (i 1))) + b (i 1)) 0 * ns (i 0)

/-- The plain matrix product. -/
def project {n k d : ℕ} (X : FVec Ideal ⟨2, ![n, k]⟩ .f32) (W : FVec Ideal ⟨2, ![k, d]⟩ .f32) :
    FVec Ideal ⟨2, ![n, d]⟩ .f32 :=
  fun i => ∑ j : Fin k, X (ix2 (i 0) j) * W (ix2 j (i 1))

/-- The last layer's epilogue: `logistic (A (r, c) · nd r + b c) + ε`. -/
def biasAct {n d : ℕ} (A : FVec Ideal ⟨2, ![n, d]⟩ .f32) (nd : Fin n → EReal) (b : Fin d → EReal)
    (ε : EReal) : FVec Ideal ⟨2, ![n, d]⟩ .f32 :=
  fun i => Ideal.logistic (A i * nd (i 0) + b (i 1)) + ε

/-! ## Small readings -/

/-- A unit-wide column cut out of an `[a, c]` array at column `o`: at `(p, u)` the operand at `(p, g)`, `g = o`. -/
theorem slice_col_apply {α : Type} {a c : ℕ} (o : ℕ) (x : (⟨2, ![a, c]⟩ : Shape).Idx → α)
    (h : (⟨2, ![a, c]⟩ : Shape).Slices ![0, o] ⟨2, ![a, 1]⟩) (p : Fin a) (u : Fin 1) (g : Fin c) (hg : g.val = o) :
    extractStridedSlice ⟨2, ![a, 1]⟩ ![0, o] x h (ix2 p u) = x (ix2 p g) := by
  refine extractStridedSlice_apply _ x h (ix2 p u) (ix2 p g) fun ax => ?_
  match ax with
  | ⟨0, _⟩ => show p.val = 0 + p.val; omega
  | ⟨1, _⟩ => show g.val = o + u.val; omega

/-- The f32 word of one is the real one. -/
theorem ofBits_one_f32 : Ideal.ofBits .f32 0x3F800000#32 = 1 := by
  simp [Ideal.ofBits, Ideal.ieee, -EReal.coe_mul]; norm_num

/-! ## The vector unit's spellings, on a block of `a` rows, at an index -/

/-- Rows scaled: the column of scales spread over the lanes, times the block. -/
theorem vpu_scale {a b : ℕ} (x0 : FVec Ideal ⟨2, ![a, b]⟩ .f32) (x1 : FVec Ideal ⟨2, ![a, 1]⟩ .f32)
    (hc : (⟨2, ![a, 1]⟩ : Shape).ShapeCasts ⟨2, ![a, 1]⟩) (hb : (⟨2, ![a, 1]⟩ : Shape).Broadcasts ⟨2, ![a, b]⟩)
    (p : Fin a) (q : Fin b) :
    mulf x0 (broadcastTo ⟨2, ![a, b]⟩ (shapeCast ⟨2, ![a, 1]⟩ x1 hc) hb) (ix2 p q)
      = x0 (ix2 p q) * x1 (ix2 p (0 : Fin 1)) := by
  rw [shapeCast_self]
  exact congrArg (x0 (ix2 p q) * ·) (Cert.Proof.Columns.broadcastTo_a1_ab_apply x1 hb p q)

/-- One convolution layer on a block of rows: the two scales arrive side by side as the columns 0 and 1 of `x0`. -/
theorem vpu_conv {a k d : ℕ} (x0 : FVec Ideal ⟨2, ![a, 2]⟩ .f32) (x4 : FVec Ideal ⟨2, ![a, k]⟩ .f32)
    (x8 : FVec Ideal ⟨2, ![k, d]⟩ .f32) (x12 : FVec Ideal ⟨2, ![1, d]⟩ .f32)
    (hc0 : (⟨2, ![a, 2]⟩ : Shape).ShapeCasts ⟨2, ![a, 2]⟩)
    (hs0 : (⟨2, ![a, 2]⟩ : Shape).Slices ![0, 0] ⟨2, ![a, 1]⟩) (hs1 : (⟨2, ![a, 2]⟩ : Shape).Slices ![0, 1] ⟨2, ![a, 1]⟩)
    (hc4 : (⟨2, ![a, k]⟩ : Shape).ShapeCasts ⟨2, ![a, k]⟩) (hbk : (⟨2, ![a, 1]⟩ : Shape).Broadcasts ⟨2, ![a, k]⟩)
    (ht : FTy.bits .bf16 < FTy.bits .f32)
    (hc12 : (⟨2, ![1, d]⟩ : Shape).ShapeCasts ⟨2, ![1, d]⟩) (hb12 : (⟨2, ![1, d]⟩ : Shape).Broadcasts ⟨2, ![a, d]⟩)
    (hbd : (⟨2, ![a, 1]⟩ : Shape).Broadcasts ⟨2, ![a, d]⟩) (p : Fin a) (q : Fin d) :
    mulf (maximumf (addf (matmul (DotDims.plain a k d) none
              (truncf .bf16 (mulf (shapeCast ⟨2, ![a, k]⟩ x4 hc4)
                (broadcastTo ⟨2, ![a, k]⟩ (extractStridedSlice ⟨2, ![a, 1]⟩ ![0, 1] (shapeCast ⟨2, ![a, 2]⟩ x0 hc0) hs1) hbk)) ht)
              (truncf .bf16 x8 ht) (constant ⟨2, ![a, d]⟩ .f32 0x00000000#32))
            (broadcastTo ⟨2, ![a, d]⟩ (shapeCast ⟨2, ![1, d]⟩ x12 hc12) hb12))
          (broadcast ⟨2, ![a, d]⟩ (Scalar.ofBits .f32 0x00000000#32)))
        (broadcastTo ⟨2, ![a, d]⟩ (extractStridedSlice ⟨2, ![a, 1]⟩ ![0, 0] (shapeCast ⟨2, ![a, 2]⟩ x0 hc0) hs0) hbd) (ix2 p q)
      = max ((∑ j : Fin k, (x4 (ix2 p j) * x0 (ix2 p (1 : Fin 2))) * x8 (ix2 j q)) + x12 (ix2 (0 : Fin 1) q)) 0
        * x0 (ix2 p (0 : Fin 2)) := by
  rw [shapeCast_self, shapeCast_self, shapeCast_self]
  refine congrArg₂ (· * ·) (congrArg₂ max (congrArg₂ (· + ·) ?_ ?_) Ideal.ofBits_zero_f32) ?_
  · refine (Cert.Proof.PlainDot.matmul_plain_zero none _ _ (ix2 p q)).trans ?_
    refine Finset.sum_congr rfl fun j _ => congrArg (· * x8 (ix2 j q)) ?_
    refine congrArg (x4 (ix2 p j) * ·) ?_
    exact (Cert.Proof.Columns.broadcastTo_a1_ab_apply _ hbk p j).trans (slice_col_apply 1 x0 hs1 p 0 1 rfl)
  · exact broadcastTo_1b_ab_apply x12 hb12 p q
  · exact (Cert.Proof.Columns.broadcastTo_a1_ab_apply _ hbd p q).trans (slice_col_apply 0 x0 hs0 p 0 0 rfl)

/-- The projection on a block of rows. -/
theorem vpu_project {a k d : ℕ} (x0 : FVec Ideal ⟨2, ![a, k]⟩ .f32) (x3 : FVec Ideal ⟨2, ![k, d]⟩ .f32)
    (hc : (⟨2, ![a, k]⟩ : Shape).ShapeCasts ⟨2, ![a, k]⟩) (ht : FTy.bits .bf16 < FTy.bits .f32) (p : Fin a) (q : Fin d) :
    matmul (DotDims.plain a k d) none (truncf .bf16 (shapeCast ⟨2, ![a, k]⟩ x0 hc) ht) (truncf .bf16 x3 ht)
        (constant ⟨2, ![a, d]⟩ .f32 0x00000000#32) (ix2 p q)
      = ∑ j : Fin k, x0 (ix2 p j) * x3 (ix2 j q) := by
  rw [shapeCast_self]
  exact Cert.Proof.PlainDot.matmul_plain_zero none _ _ (ix2 p q)

/-- The last layer's epilogue on a block of rows. -/
theorem vpu_biasAct {a d : ℕ} (x0 : FVec Ideal ⟨2, ![a, d]⟩ .f32) (x2 : FVec Ideal ⟨2, ![a, 1]⟩ .f32)
    (x6 : FVec Ideal ⟨2, ![1, d]⟩ .f32) (w : BitVec 32)
    (hc0 : (⟨2, ![a, d]⟩ : Shape).ShapeCasts ⟨2, ![a, d]⟩) (hc2 : (⟨2, ![a, 1]⟩ : Shape).ShapeCasts ⟨2, ![a, 1]⟩)
    (hb2 : (⟨2, ![a, 1]⟩ : Shape).Broadcasts ⟨2, ![a, d]⟩)
    (hc6 : (⟨2, ![1, d]⟩ : Shape).ShapeCasts ⟨2, ![1, d]⟩) (hb6 : (⟨2, ![1, d]⟩ : Shape).Broadcasts ⟨2, ![a, d]⟩)
    (p : Fin a) (q : Fin d) :
    addf (logistic (addf (mulf (shapeCast ⟨2, ![a, d]⟩ x0 hc0)
              (broadcastTo ⟨2, ![a, d]⟩ (shapeCast ⟨2, ![a, 1]⟩ x2 hc2) hb2))
            (broadcastTo ⟨2, ![a, d]⟩ (shapeCast ⟨2, ![1, d]⟩ x6 hc6) hb6)))
        (broadcast ⟨2, ![a, d]⟩ (Scalar.ofBits .f32 w)) (ix2 p q)
      = Ideal.logistic (x0 (ix2 p q) * x2 (ix2 p (0 : Fin 1)) + x6 (ix2 (0 : Fin 1) q)) + Ideal.ofBits .f32 w := by
  rw [shapeCast_self, shapeCast_self, shapeCast_self]
  refine congrArg (· + Ideal.ofBits .f32 w) (congrArg Ideal.logistic (congrArg₂ (· + ·) ?_ ?_))
  · exact congrArg (x0 (ix2 p q) * ·) (Cert.Proof.Columns.broadcastTo_a1_ab_apply x2 hb2 p q)
  · exact broadcastTo_1b_ab_apply x6 hb6 p q

/-! ## The host's spellings, on whole arrays -/

/-- Rows scaled: the column of scales broadcast over the columns, times the array. -/
theorem host_scale {n d : ℕ} (X : FVec Ideal ⟨2, ![n, d]⟩ .f32) (s : FVec Ideal ⟨2, ![n, 1]⟩ .f32)
    (h : (⟨2, ![n, 1]⟩ : Shape).BroadcastsInDim ⟨2, ![n, d]⟩ (![0, 1] : Fin 2 → Fin (⟨2, ![n, d]⟩ : Shape).rank)) :
    mulf X (broadcastInDim ⟨2, ![n, d]⟩ ![0, 1] h s) = scaleRows X (fun r => s (ix2 r (0 : Fin 1))) := by
  funext i
  obtain ⟨r, c, rfl⟩ : ∃ (r : Fin n) (c : Fin d), i = ix2 r c := ⟨i 0, i 1, eq_ix2 i⟩
  exact congrArg (X (ix2 r c) * ·) (Cert.HostRead.bcast_a1_ac_apply s h r c)

/-- One convolution layer: the aggregated features scaled by `nd`, `dot_general` with the weights, the bias vector
    placed on a unit row and spread over the rows, the maximum with a broadcast zero, and the scale `ns`. -/
theorem host_conv {n k d : ℕ} (A : FVec Ideal ⟨2, ![n, k]⟩ .f32) (ns nd : FVec Ideal ⟨2, ![n, 1]⟩ .f32)
    (W : FVec Ideal ⟨2, ![k, d]⟩ .f32) (b : FVec Ideal ⟨1, ![d]⟩ .f32)
    (hk : (⟨2, ![n, 1]⟩ : Shape).BroadcastsInDim ⟨2, ![n, k]⟩ (![0, 1] : Fin 2 → Fin (⟨2, ![n, k]⟩ : Shape).rank))
    (hd : (⟨2, ![n, 1]⟩ : Shape).BroadcastsInDim ⟨2, ![n, d]⟩ (![0, 1] : Fin 2 → Fin (⟨2, ![n, d]⟩ : Shape).rank))
    (h1 : (⟨1, ![d]⟩ : Shape).BroadcastsInDim ⟨2, ![1, d]⟩ (![1] : Fin 1 → Fin (⟨2, ![1, d]⟩ : Shape).rank))
    (h2 : (⟨2, ![1, d]⟩ : Shape).BroadcastsInDim ⟨2, ![n, d]⟩ (![0, 1] : Fin 2 → Fin (⟨2, ![n, d]⟩ : Shape).rank))
    (h0 : (⟨0, ![]⟩ : Shape).BroadcastsInDim ⟨2, ![n, d]⟩ ![]) :
    mulf (maximumf (addf (Host.dotGeneral (DotDims.plain n k d) none (mulf A (broadcastInDim ⟨2, ![n, k]⟩ ![0, 1] hk nd)) W)
            (broadcastInDim ⟨2, ![n, d]⟩ ![0, 1] h2 (broadcastInDim ⟨2, ![1, d]⟩ ![1] h1 b)))
          (broadcastInDim ⟨2, ![n, d]⟩ ![] h0 (constant (F := Ideal) ⟨0, ![]⟩ .f32 0x00000000#32)))
        (broadcastInDim ⟨2, ![n, d]⟩ ![0, 1] hd ns)
      = convLayer A (fun r => ns (ix2 r (0 : Fin 1))) (fun r => nd (ix2 r (0 : Fin 1))) W (fun c => b (ix1 c)) := by
  funext i
  obtain ⟨r, c, rfl⟩ : ∃ (r : Fin n) (c : Fin d), i = ix2 r c := ⟨i 0, i 1, eq_ix2 i⟩
  refine congrArg₂ (· * ·) (congrArg₂ max (congrArg₂ (· + ·) ?_ ?_) ?_) (Cert.HostRead.bcast_a1_ac_apply ns hd r c)
  · simp only [Host.dotGeneral]
    refine (Cert.Proof.PlainDot.dotGeneral_plain none _ _ W (ix2 r c)).trans ?_
    exact Finset.sum_congr rfl fun j _ => congrArg (· * W (ix2 j c))
      (congrArg (A (ix2 r j) * ·) (Cert.HostRead.bcast_a1_ac_apply nd hk r j))
  · exact (Cert.HostRead.bcast_1c_ac_apply _ h2 r c).trans (Cert.HostRead.bcast_c_1c_apply b h1 0 c)
  · rw [broadcastInDim_apply ![] h0 _ (ix2 r c) ix0 (fun a => a.elim0), constant_apply, Ideal.ofBits_zero_f32]

/-- The projection: the host's `dot_general`. -/
theorem host_project {n k d : ℕ} (X : FVec Ideal ⟨2, ![n, k]⟩ .f32) (W : FVec Ideal ⟨2, ![k, d]⟩ .f32) :
    Host.dotGeneral (DotDims.plain n k d) none X W = project X W := by
  funext i
  simp only [Host.dotGeneral]
  exact Cert.Proof.PlainDot.dotGeneral_plain none _ X W i

/-- The last layer's epilogue: the logistic function as jax expands it on the host — one over one plus the
    exponential of the negated argument — which on the extended reals IS the logistic function; then the added word. -/
theorem host_biasAct {n d : ℕ} (A : FVec Ideal ⟨2, ![n, d]⟩ .f32) (nd : FVec Ideal ⟨2, ![n, 1]⟩ .f32)
    (b : FVec Ideal ⟨1, ![d]⟩ .f32) (w : BitVec 32)
    (hd : (⟨2, ![n, 1]⟩ : Shape).BroadcastsInDim ⟨2, ![n, d]⟩ (![0, 1] : Fin 2 → Fin (⟨2, ![n, d]⟩ : Shape).rank))
    (h1 : (⟨1, ![d]⟩ : Shape).BroadcastsInDim ⟨2, ![1, d]⟩ (![1] : Fin 1 → Fin (⟨2, ![1, d]⟩ : Shape).rank))
    (h2 : (⟨2, ![1, d]⟩ : Shape).BroadcastsInDim ⟨2, ![n, d]⟩ (![0, 1] : Fin 2 → Fin (⟨2, ![n, d]⟩ : Shape).rank))
    (h0 : (⟨0, ![]⟩ : Shape).BroadcastsInDim ⟨2, ![n, d]⟩ ![]) :
    addf (Host.divf (broadcastInDim ⟨2, ![n, d]⟩ ![] h0 (constant (F := Ideal) ⟨0, ![]⟩ .f32 0x3F800000#32))
          (addf (broadcastInDim ⟨2, ![n, d]⟩ ![] h0 (constant (F := Ideal) ⟨0, ![]⟩ .f32 0x3F800000#32))
            (Host.exp (Host.negf (addf (mulf A (broadcastInDim ⟨2, ![n, d]⟩ ![0, 1] hd nd))
              (broadcastInDim ⟨2, ![n, d]⟩ ![0, 1] h2 (broadcastInDim ⟨2, ![1, d]⟩ ![1] h1 b)))))))
        (broadcastInDim ⟨2, ![n, d]⟩ ![] h0 (constant (F := Ideal) ⟨0, ![]⟩ .f32 w))
      = biasAct A (fun r => nd (ix2 r (0 : Fin 1))) (fun c => b (ix1 c)) (Ideal.ofBits .f32 w) := by
  funext i
  obtain ⟨r, c, rfl⟩ : ∃ (r : Fin n) (c : Fin d), i = ix2 r c := ⟨i 0, i 1, eq_ix2 i⟩
  have hone : broadcastInDim ⟨2, ![n, d]⟩ ![] h0 (constant (F := Ideal) ⟨0, ![]⟩ .f32 0x3F800000#32) (ix2 r c) = 1 := by
    rw [broadcastInDim_apply ![] h0 _ (ix2 r c) ix0 (fun a => a.elim0), constant_apply, ofBits_one_f32]
  have hw : broadcastInDim ⟨2, ![n, d]⟩ ![] h0 (constant (F := Ideal) ⟨0, ![]⟩ .f32 w) (ix2 r c) = Ideal.ofBits .f32 w := by
    rw [broadcastInDim_apply ![] h0 _ (ix2 r c) ix0 (fun a => a.elim0), constant_apply]
  have harg : addf (mulf A (broadcastInDim ⟨2, ![n, d]⟩ ![0, 1] hd nd))
      (broadcastInDim ⟨2, ![n, d]⟩ ![0, 1] h2 (broadcastInDim ⟨2, ![1, d]⟩ ![1] h1 b)) (ix2 r c)
      = A (ix2 r c) * nd (ix2 r (0 : Fin 1)) + b (ix1 c) :=
    congrArg₂ (· + ·) (congrArg (A (ix2 r c) * ·) (Cert.HostRead.bcast_a1_ac_apply nd hd r c))
      ((Cert.HostRead.bcast_1c_ac_apply _ h2 r c).trans (Cert.HostRead.bcast_c_1c_apply b h1 0 c))
  show Ideal.div (broadcastInDim ⟨2, ![n, d]⟩ ![] h0 (constant (F := Ideal) ⟨0, ![]⟩ .f32 0x3F800000#32) (ix2 r c))
        (broadcastInDim ⟨2, ![n, d]⟩ ![] h0 (constant (F := Ideal) ⟨0, ![]⟩ .f32 0x3F800000#32) (ix2 r c)
          + Ideal.exp (-(addf (mulf A (broadcastInDim ⟨2, ![n, d]⟩ ![0, 1] hd nd))
              (broadcastInDim ⟨2, ![n, d]⟩ ![0, 1] h2 (broadcastInDim ⟨2, ![1, d]⟩ ![1] h1 b)) (ix2 r c))))
      + broadcastInDim ⟨2, ![n, d]⟩ ![] h0 (constant (F := Ideal) ⟨0, ![]⟩ .f32 w) (ix2 r c)
      = Ideal.logistic (A (ix2 r c) * nd (ix2 r (0 : Fin 1)) + b (ix1 c)) + Ideal.ofBits .f32 w
  rw [hone, hw, harg]
  rfl

end Cert.Proof.GraphConv

end
-- ==== Proof.Block0.lean ====
/-
  The first pallas_call scales the rows of the features: over a grid of 10 points, point `t` takes rows
  `5000 t … 5000 t + 4999` of the features and of the column of source-side scales and writes the same rows of the result.
  Whatever the two arrays hold when the call is entered (`V`), after the call the result array is `scaleRows` of them:
  every block written back is the restriction of that one function to the block's rows, and the ten blocks cover the array.
-/
import proofs.«157035_j71597104824805_1_alg».proof.Proof.Gen.KernelIdeal.Frame
import proofs.«157035_j71597104824805_1_alg».proof.Proof.LibGraphConv
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Proof.GraphConv

variable (V : (c : Dev nD) → (b : Ref sig .tc) → Buf (Elt Ideal) ((c : Thread nD τ).loc b))

/-- The zero offsets of a load or store of a whole staging buffer. -/
theorem zero_off : (![0, 0] : Fin 2 → Nat) = fun _ => 0 := funext fun a => by fin_cases a <;> rfl

/-- The three index maps, decided over the grid: block `(t, 0)` at point `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is rows `5000 t …` of `scaleRows` of the features and the scales as the call finds them. -/
theorem flushed0 (c : Dev nD) (t : Fin cfg0.N) :
    (dat0 V c).flushed 2 t = ((cfg0.win 2).blk t).view.read (Elt Ideal)
      (scaleRows (V c main_arg0) (fun r => V c main_v13 (ix2 r (0 : Fin 1)))) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S5000x1) zero_off]
  obtain ⟨e00, e01, e10, e11, e20, e21⟩ := idx0 t
  have ht : t.val < 10 := lt_of_lt_of_eq t.isLt N_0
  funext y
  obtain ⟨p, q, rfl⟩ : ∃ (p : Fin 5000) (q : Fin 128), y = ix2 p q := ⟨y 0, y 1, eq_ix2 y⟩
  have hp := p.isLt
  have E0 : ((cfg0.win 0).blk t).view.emb (ix2 p q) = ix2 (⟨t.val * 5000 + p.val, by omega⟩ : Fin 50000) q := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * q.val = q.val; omega
  have E1 : ((cfg0.win 1).blk t).view.emb (ix2 p (0 : Fin 1)) = ix2 (⟨t.val * 5000 + p.val, by omega⟩ : Fin 50000) (0 : Fin 1) := by
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  have E2 : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  refine (vpu_scale (iblk0 V c 0 t) (iblk0 V c 1 t) shapeCasts_S5000x1_S5000x1 broadcasts_S5000x1_S5000x128 p q).trans ?_
  have key : ∀ (A : S50000x128.Idx → EReal) (s : S50000x1.Idx → EReal),
      A (((cfg0.win 0).blk t).view.emb (ix2 p q)) * s (((cfg0.win 1).blk t).view.emb (ix2 p (0 : Fin 1)))
        = scaleRows A (fun r => s (ix2 r (0 : Fin 1))) (((cfg0.win 2).blk t).view.emb (ix2 p q)) := by
    intro A s
    rw [E0, E1, E2]
    rfl
  exact key (V c main_arg0) (V c main_v13)

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v22).slice (win0_2.rect t)).set ↔ _
  rw [View.set_slice_whole, Rect.mem_set_unit]
  exact Iff.rfl

/-- The ten blocks cover the result array: row `r` is in the block of point `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e00, e01, e10, e11, e20, e21⟩ := idx0 t
  have htv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the first call: the features with row `r` scaled by the source-side scale of `r`. -/
theorem final0 (c : Dev nD) : (dat0 V c).arrAt 2 cfg0.N
    = scaleRows (V c main_arg0) (fun r => V c main_v13 (ix2 r (0 : Fin 1))) :=
  (dat0 V c).arrAt_eq_of_cover 2 _ (fun t _ => flushed0 V c t) cover0

end Cert.KernelIdeal.Blocks

end
-- ==== Proof.Block1.lean ====
/-
  The second pallas_call is the first convolution layer after its aggregation: point `t` of a grid of 10 takes rows
  `5000 t … 5000 t + 4999` of the aggregated features and of the two-column array of scales, and the whole weight matrix
  and bias row, and writes the same rows of the result. Whatever the arrays hold when the call is entered (`V`), after
  the call the result array is `convLayer` of them.
-/
import proofs.«157035_j71597104824805_1_alg».proof.Proof.Gen.KernelIdeal.Frame
import proofs.«157035_j71597104824805_1_alg».proof.Proof.LibGraphConv
import proofs.«157035_j71597104824805_1_alg».proof.Proof.Block0
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Proof.GraphConv

variable (V : (c : Dev nD) → (b : Ref sig .tc) → Buf (Elt Ideal) ((c : Thread nD τ).loc b))

/-- The five index maps, decided over the grid: the row-blocked windows are at block `(t, 0)` at point `t`, the weight
    matrix and the bias row stay at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer as ONE function of the arrays the call finds: the aggregated features, the two scales (columns 0 and 1 of
    the two-column array), the weight matrix and the bias row. -/
abbrev layer1 (c : Dev nD) : S50000x128.Idx → Elt Ideal .f32 :=
  convLayer (V c main_v32) (fun r => V c main_v21 (ix2 r (0 : Fin 2))) (fun r => V c main_v21 (ix2 r (1 : Fin 2)))
    (V c main_arg3) (fun j => V c main_v33 (ix2 (0 : Fin 1) j))

/-- What point `t` writes back is rows `5000 t …` of the layer: a row of the result depends on the same row of the
    aggregated features and of the scales, and on the whole weight matrix and bias row, which every point holds. -/
theorem flushed1 (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero zero_off]
  simp only [View.ld_unit_zero (S := S5000x128) zero_off, View.ld_unit_zero (S := S5000x2) zero_off,
    View.ld_unit_zero (S := S128x128) zero_off, View.ld_unit_zero (S := S1x128) zero_off]
  obtain ⟨e00, e01, e10, e11, e20, e21, e30, e31, e40, e41⟩ := idx1 t
  have ht : t.val < 10 := lt_of_lt_of_eq t.isLt N_1
  funext y
  obtain ⟨p, q, rfl⟩ : ∃ (p : Fin 5000) (q : Fin 128), y = ix2 p q := ⟨y 0, y 1, eq_ix2 y⟩
  have hp := p.isLt
  have E0 : ∀ j : Fin 128, ((cfg1.win 0).blk t).view.emb (ix2 p j) = ix2 (⟨t.val * 5000 + p.val, by omega⟩ : Fin 50000) j := fun j => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * j.val = j.val; omega
  have E1 : ∀ u : Fin 2, ((cfg1.win 1).blk t).view.emb (ix2 p u) = ix2 (⟨t.val * 5000 + p.val, by omega⟩ : Fin 50000) u := fun u => by
    funext a; apply Fin.ext
    match a with
    | ⟨0, _⟩ => show win1_1.index t (0 : Fin 2) * 5000 + 1 * p.val = t.val * 5000 + p.val; omega
    | ⟨1, _⟩ => show win1_1.index t (1 : Fin 2) * 2 + 1 * u.val = u.val; omega
  have E2 : ∀ j : Fin 128, ((cfg1.win 2).blk t).view.emb (ix2 j q) = ix2 j q := fun j => by
    funext a; apply Fin.ext
    match a with
    | ⟨0, _⟩ => show win1_2.index t (0 : Fin 2) * 128 + 1 * j.val = j.val; omega
    | ⟨1, _⟩ => show win1_2.index t (1 : Fin 2) * 128 + 1 * q.val = q.val; omega
  have E3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have E4 : ((cfg1.win 4).blk t).view.emb (ix2 p q) = ix2 (⟨t.val * 5000 + p.val, by omega⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  refine (vpu_conv (iblk1 V c 1 t) (iblk1 V c 0 t) (iblk1 V c 2 t) (iblk1 V c 3 t) shapeCasts_S5000x2_S5000x2
    slices_S5000x2_o0_0_S5000x1 slices_S5000x2_o0_1_S5000x1 shapeCasts_S5000x128_S5000x128 broadcasts_S5000x1_S5000x128
    bitsLt_bf16_f32 shapeCasts_S1x128_S1x128 broadcasts_S1x128_S5000x128 broadcasts_S5000x1_S5000x128 p q).trans ?_
  have key : ∀ (A : S50000x128.Idx → EReal) (s : S50000x2.Idx → EReal) (W : S128x128.Idx → EReal) (b : S1x128.Idx → EReal),
      max ((∑ j : Fin 128, (A (((cfg1.win 0).blk t).view.emb (ix2 p j))
              * s (((cfg1.win 1).blk t).view.emb (ix2 p (1 : Fin 2))))
            * W (((cfg1.win 2).blk t).view.emb (ix2 j q)))
          + b (((cfg1.win 3).blk t).view.emb (ix2 (0 : Fin 1) q))) 0
          * s (((cfg1.win 1).blk t).view.emb (ix2 p (0 : Fin 2)))
        = convLayer A (fun r => s (ix2 r (0 : Fin 2))) (fun r => s (ix2 r (1 : Fin 2))) W (fun j => b (ix2 (0 : Fin 1) j))
            (((cfg1.win 4).blk t).view.emb (ix2 p q)) := by
    intro A s W b
    simp only [E0, E1, E2, E3, E4]
    rfl
  exact key (V c main_v32) (V c main_v21) (V c main_arg3) (V c main_v33)

/-- An index of the result array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v34).slice (win1_4.rect t)).set ↔ _
  rw [View.set_slice_whole, Rect.mem_set_unit]
  exact Iff.rfl

/-- The ten blocks cover the result array: row `r` is in the block of point `r / 5000`. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e00, e01, e10, e11, e20, e21, e30, e31, e40, e41⟩ := idx1 t
  have htv : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the call: the layer of the arrays the call was entered with. -/
theorem final1 (c : Dev nD) : (dat1 V c).arrAt 4 cfg1.N = layer1 V c :=
  (dat1 V c).arrAt_eq_of_cover 4 _ (fun t _ => flushed1 V c t) cover1

end Cert.KernelIdeal.Blocks

end
-- ==== Proof.Block2.lean ====
/-
  The third pallas_call is the second convolution layer after its aggregation, the same kernel on the second layer's
  arrays: point `t` of a grid of 10 takes rows `5000 t … 5000 t + 4999` of the aggregated features and of the two-column
  array of scales, and the whole weight matrix and bias row, and writes the same rows of the result. After the call the
  result array is `convLayer` of the arrays the call was entered with.
-/
import proofs.«157035_j71597104824805_1_alg».proof.Proof.Gen.KernelIdeal.Frame
import proofs.«157035_j71597104824805_1_alg».proof.Proof.LibGraphConv
import proofs.«157035_j71597104824805_1_alg».proof.Proof.Block0
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Proof.GraphConv

variable (V : (c : Dev nD) → (b : Ref sig .tc) → Buf (Elt Ideal) ((c : Thread nD τ).loc b))

/-- The five index maps, decided over the grid: the row-blocked windows are at block `(t, 0)` at point `t`, the weight
    matrix and the bias row stay at block `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer as ONE function of the arrays the call finds: the aggregated features, the two scales (columns 0 and 1 of
    the two-column array), the weight matrix and the bias row. -/
abbrev layer2 (c : Dev nD) : S50000x128.Idx → Elt Ideal .f32 :=
  convLayer (V c main_v44) (fun r => V c main_v21 (ix2 r (0 : Fin 2))) (fun r => V c main_v21 (ix2 r (1 : Fin 2)))
    (V c main_arg5) (fun j => V c main_v45 (ix2 (0 : Fin 1) j))

/-- What point `t` writes back is rows `5000 t …` of the layer: a row of the result depends on the same row of the
    aggregated features and of the scales, and on the whole weight matrix and bias row, which every point holds. -/
theorem flushed2 (c : Dev nD) (t : Fin cfg2.N) :
    (dat2 V c).flushed 4 t = ((cfg2.win 4).blk t).view.read (Elt Ideal) (layer2 V c) := by
  show (cfg2.win 4).cut (grid2.coords t) ((dat2 V c).after 4 t) = _
  rw [after2_4]
  unfold out2_4
  rw [View.canon_unit_zero zero_off]
  simp only [View.ld_unit_zero (S := S5000x128) zero_off, View.ld_unit_zero (S := S5000x2) zero_off,
    View.ld_unit_zero (S := S128x128) zero_off, View.ld_unit_zero (S := S1x128) zero_off]
  obtain ⟨e00, e01, e10, e11, e20, e21, e30, e31, e40, e41⟩ := idx2 t
  have ht : t.val < 10 := lt_of_lt_of_eq t.isLt N_2
  funext y
  obtain ⟨p, q, rfl⟩ : ∃ (p : Fin 5000) (q : Fin 128), y = ix2 p q := ⟨y 0, y 1, eq_ix2 y⟩
  have hp := p.isLt
  have E0 : ∀ j : Fin 128, ((cfg2.win 0).blk t).view.emb (ix2 p j) = ix2 (⟨t.val * 5000 + p.val, by omega⟩ : Fin 50000) j := fun j => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * j.val = j.val; omega
  have E1 : ∀ u : Fin 2, ((cfg2.win 1).blk t).view.emb (ix2 p u) = ix2 (⟨t.val * 5000 + p.val, by omega⟩ : Fin 50000) u := fun u => by
    funext a; apply Fin.ext
    match a with
    | ⟨0, _⟩ => show win2_1.index t (0 : Fin 2) * 5000 + 1 * p.val = t.val * 5000 + p.val; omega
    | ⟨1, _⟩ => show win2_1.index t (1 : Fin 2) * 2 + 1 * u.val = u.val; omega
  have E2 : ∀ j : Fin 128, ((cfg2.win 2).blk t).view.emb (ix2 j q) = ix2 j q := fun j => by
    funext a; apply Fin.ext
    match a with
    | ⟨0, _⟩ => show win2_2.index t (0 : Fin 2) * 128 + 1 * j.val = j.val; omega
    | ⟨1, _⟩ => show win2_2.index t (1 : Fin 2) * 128 + 1 * q.val = q.val; omega
  have E3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have E4 : ((cfg2.win 4).blk t).view.emb (ix2 p q) = ix2 (⟨t.val * 5000 + p.val, by omega⟩ : Fin 50000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  refine (vpu_conv (iblk2 V c 1 t) (iblk2 V c 0 t) (iblk2 V c 2 t) (iblk2 V c 3 t) shapeCasts_S5000x2_S5000x2
    slices_S5000x2_o0_0_S5000x1 slices_S5000x2_o0_1_S5000x1 shapeCasts_S5000x128_S5000x128 broadcasts_S5000x1_S5000x128
    bitsLt_bf16_f32 shapeCasts_S1x128_S1x128 broadcasts_S1x128_S5000x128 broadcasts_S5000x1_S5000x128 p q).trans ?_
  have key : ∀ (A : S50000x128.Idx → EReal) (s : S50000x2.Idx → EReal) (W : S128x128.Idx → EReal) (b : S1x128.Idx → EReal),
      max ((∑ j : Fin 128, (A (((cfg2.win 0).blk t).view.emb (ix2 p j))
              * s (((cfg2.win 1).blk t).view.emb (ix2 p (1 : Fin 2))))
            * W (((cfg2.win 2).blk t).view.emb (ix2 j q)))
          + b (((cfg2.win 3).blk t).view.emb (ix2 (0 : Fin 1) q))) 0
          * s (((cfg2.win 1).blk t).view.emb (ix2 p (0 : Fin 2)))
        = convLayer A (fun r => s (ix2 r (0 : Fin 2))) (fun r => s (ix2 r (1 : Fin 2))) W (fun j => b (ix2 (0 : Fin 1) j))
            (((cfg2.win 4).blk t).view.emb (ix2 p q)) := by
    intro A s W b
    simp only [E0, E1, E2, E3, E4]
    rfl
  exact key (V c main_v44) (V c main_v21) (V c main_arg5) (V c main_v45)

/-- An index of the result array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v46).slice (win2_4.rect t)).set ↔ _
  rw [View.set_slice_whole, Rect.mem_set_unit]
  exact Iff.rfl

/-- The ten blocks cover the result array: row `r` is in the block of point `r / 5000`. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e00, e01, e10, e11, e20, e21, e30, e31, e40, e41⟩ := idx2 t
  have htv : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE RESULT ARRAY after the call: the layer of the arrays the call was entered with. -/
theorem final2 (c : Dev nD) : (dat2 V c).arrAt 4 cfg2.N = layer2 V c :=
  (dat2 V c).arrAt_eq_of_cover 4 _ (fun t _ => flushed2 V c t) cover2

end Cert.KernelIdeal.Blocks

end
-- ==== Proof.Block3.lean ====
/-
  The fourth pallas_call is the last layer's projection, taken before the aggregation because it shrinks the rows from 128
  entries to 16: point `t` of a grid of 10 takes rows `5000 t … 5000 t + 4999` of the features and the whole 128 × 16
  weight matrix and writes the same rows of the product. After the call the result array is the matrix product of the
  arrays the call was entered with.
-/
import proofs.«157035_j71597104824805_1_alg».proof.Proof.Gen.KernelIdeal.Frame
import proofs.«157035_j71597104824805_1_alg».proof.Proof.LibGraphConv
import proofs.«157035_j71597104824805_1_alg».proof.Proof.Block0
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Proof.GraphConv

variable (V : (c : Dev nD) → (b : Ref sig .tc) → Buf (Elt Ideal) ((c : Thread nD τ).loc b))

/-- The three index maps, decided over the grid. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The product as ONE function of the arrays the call finds. -/
abbrev layer3 (c : Dev nD) : S50000x16.Idx → Elt Ideal .f32 := project (V c main_v46) (V c main_arg7)

/-- What point `t` writes back is rows `5000 t …` of the product. -/
theorem flushed3 (c : Dev nD) (t : Fin cfg3.N) :
    (dat3 V c).flushed 2 t = ((cfg3.win 2).blk t).view.read (Elt Ideal) (layer3 V c) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S128x16) zero_off]
  obtain ⟨e00, e01, e10, e11, e20, e21⟩ := idx3 t
  have ht : t.val < 10 := lt_of_lt_of_eq t.isLt N_3
  funext y
  obtain ⟨p, q, rfl⟩ : ∃ (p : Fin 5000) (q : Fin 16), y = ix2 p q := ⟨y 0, y 1, eq_ix2 y⟩
  have hp := p.isLt
  have E0 : ∀ j : Fin 128, ((cfg3.win 0).blk t).view.emb (ix2 p j) = ix2 (⟨t.val * 5000 + p.val, by omega⟩ : Fin 50000) j := fun j => by
    funext a; apply Fin.ext
    match a with
    | ⟨0, _⟩ => show win3_0.index t (0 : Fin 2) * 5000 + 1 * p.val = t.val * 5000 + p.val; omega
    | ⟨1, _⟩ => show win3_0.index t (1 : Fin 2) * 128 + 1 * j.val = j.val; omega
  have E1 : ∀ j : Fin 128, ((cfg3.win 1).blk t).view.emb (ix2 j q) = ix2 j q := fun j => by
    funext a; apply Fin.ext
    match a with
    | ⟨0, _⟩ => show win3_1.index t (0 : Fin 2) * 128 + 1 * j.val = j.val; omega
    | ⟨1, _⟩ => show win3_1.index t (1 : Fin 2) * 16 + 1 * q.val = q.val; omega
  have E2 : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 16 + 1 * q.val = q.val; omega
  refine (vpu_project (iblk3 V c 0 t) (iblk3 V c 1 t) shapeCasts_S5000x128_S5000x128 bitsLt_bf16_f32 p q).trans ?_
  have key : ∀ (X : S50000x128.Idx → EReal) (W : S128x16.Idx → EReal),
      (∑ j : Fin 128, X (((cfg3.win 0).blk t).view.emb (ix2 p j)) * W (((cfg3.win 1).blk t).view.emb (ix2 j q)))
        = project X W (((cfg3.win 2).blk t).view.emb (ix2 p q)) := by
    intro X W
    simp only [E0, E1, E2]
    rfl
  exact key (V c main_v46) (V c main_arg7)

/-- An index of the result array is in point `t`'s block iff each coordinate is in the block's range on its axis. -/
theorem mem_blk3 (t : Fin cfg3.N) (i : S50000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v47).slice (win3_2.rect t)).set ↔ _
  rw [View.set_slice_whole, Rect.mem_set_unit]
  exact Iff.rfl

/-- The ten blocks cover the result array: row `r` is in the block of point `r / 5000`. -/
theorem cover3 (i : S50000x16.Idx) : ∃ t : Fin cfg3.N, (cfg3.win 2).flush t = true ∧ i ∈ ((cfg3.win 2).blk t).view.set := by
  have hi0 : (i 0).val < 50000 := (i 0).isLt
  have hi1 : (i 1).val < 16 := (i 1).isLt
  have hN : grid3.N = 10 := N_3
  let t : Fin cfg3.N := ⟨(i 0).val / 5000, by show (i 0).val / 5000 < grid3.N; omega⟩
  obtain ⟨e00, e01, e10, e11, e20, e21⟩ := idx3 t
  have htv : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- THE RESULT ARRAY after the call: the product of the arrays the call was entered with. -/
theorem final3 (c : Dev nD) : (dat3 V c).arrAt 2 cfg3.N = layer3 V c :=
  (dat3 V c).arrAt_eq_of_cover 2 _ (fun t _ => flushed3 V c t) cover3

end Cert.KernelIdeal.Blocks

end
-- ==== Proof.Block4.lean ====
/-
  The fifth pallas_call is the last layer's epilogue: point `t` of a grid of 10 takes rows `5000 t … 5000 t + 4999` of the
  aggregated projections and of the column of destination-side scales, and the whole bias row, and writes the same rows
  of `logistic (a · nd + b) + ε`. After the call the result array is `biasAct` of the arrays the call was entered with.
-/
import proofs.«157035_j71597104824805_1_alg».proof.Proof.Gen.KernelIdeal.Frame
import proofs.«157035_j71597104824805_1_alg».proof.Proof.LibGraphConv
import proofs.«157035_j71597104824805_1_alg».proof.Proof.Block0
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Proof.GraphConv

variable (V : (c : Dev nD) → (b : Ref sig .tc) → Buf (Elt Ideal) ((c : Thread nD τ).loc b))

/-- The four index maps, decided over the grid. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The epilogue as ONE function of the arrays the call finds. -/
abbrev layer4 (c : Dev nD) : S50000x16.Idx → Elt Ideal .f32 :=
  biasAct (V c main_v57) (fun r => V c main_v20 (ix2 r (0 : Fin 1))) (fun j => V c main_v58 (ix2 (0 : Fin 1) j))
    (Ideal.ofBits .f32 0x322BCC77#32)

/-- What point `t` writes back is rows `5000 t …` of the epilogue. -/
theorem flushed4 (c : Dev nD) (t : Fin cfg4.N) :
    (dat4 V c).flushed 3 t = ((cfg4.win 3).blk t).view.read (Elt Ideal) (layer4 V c) := by
  show (cfg4.win 3).cut (grid4.coords t) ((dat4 V c).after 3 t) = _
  rw [after4_3]
  unfold out4_3
  rw [View.canon_unit_zero zero_off]
  simp only [View.ld_unit_zero (S := S5000x16) zero_off, View.ld_unit_zero (S := S5000x1) zero_off,
    View.ld_unit_zero (S := S1x16) zero_off]
  obtain ⟨e00, e01, e10, e11, e20, e21, e30, e31⟩ := idx4 t
  have ht : t.val < 10 := lt_of_lt_of_eq t.isLt N_4
  funext y
  obtain ⟨p, q, rfl⟩ : ∃ (p : Fin 5000) (q : Fin 16), y = ix2 p q := ⟨y 0, y 1, eq_ix2 y⟩
  have hp := p.isLt
  have E0 : ((cfg4.win 0).blk t).view.emb (ix2 p q) = ix2 (⟨t.val * 5000 + p.val, by omega⟩ : Fin 50000) q := by
    funext a; apply Fin.ext
    match a with
    | ⟨0, _⟩ => show win4_0.index t (0 : Fin 2) * 5000 + 1 * p.val = t.val * 5000 + p.val; omega
    | ⟨1, _⟩ => show win4_0.index t (1 : Fin 2) * 16 + 1 * q.val = q.val; omega
  have E1 : ((cfg4.win 1).blk t).view.emb (ix2 p (0 : Fin 1)) = ix2 (⟨t.val * 5000 + p.val, by omega⟩ : Fin 50000) (0 : Fin 1) := by
    funext a; apply Fin.ext
    match a with
    | ⟨0, _⟩ => show win4_1.index t (0 : Fin 2) * 5000 + 1 * p.val = t.val * 5000 + p.val; omega
    | ⟨1, _⟩ => show win4_1.index t (1 : Fin 2) * 1 + 1 * 0 = 0; omega
  have E2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 16 + 1 * q.val = q.val; omega
  have E3 : ((cfg4.win 3).blk t).view.emb (ix2 p q) = ix2 (⟨t.val * 5000 + p.val, by omega⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * q.val = q.val; omega
  refine (vpu_biasAct (iblk4 V c 0 t) (iblk4 V c 1 t) (iblk4 V c 2 t) 0x322BCC77#32 shapeCasts_S5000x16_S5000x16
    shapeCasts_S5000x1_S5000x1 broadcasts_S5000x1_S5000x16 shapeCasts_S1x16_S1x16 broadcasts_S1x16_S5000x16 p q).trans ?_
  have key : ∀ (A : S50000x16.Idx → EReal) (s : S50000x1.Idx → EReal) (b : S1x16.Idx → EReal),
      Ideal.logistic (A (((cfg4.win 0).blk t).view.emb (ix2 p q)) * s (((cfg4.win 1).blk t).view.emb (ix2 p (0 : Fin 1)))
          + b (((cfg4.win 2).blk t).view.emb (ix2 (0 : Fin 1) q))) + Ideal.ofBits .f32 0x322BCC77#32
        = biasAct A (fun r => s (ix2 r (0 : Fin 1))) (fun j => b (ix2 (0 : Fin 1) j)) (Ideal.ofBits .f32 0x322BCC77#32)
            (((cfg4.win 3).blk t).view.emb (ix2 p q)) := by
    intro A s b
    rw [E0, E1, E2, E3]
    rfl
  exact key (V c main_v57) (V c main_v20) (V c main_v58)

/-- An index of the result array is in point `t`'s block iff each coordinate is in the block's range on its axis. -/
theorem mem_blk4 (t : Fin cfg4.N) (i : S50000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v59).slice (win4_3.rect t)).set ↔ _
  rw [View.set_slice_whole, Rect.mem_set_unit]
  exact Iff.rfl

/-- The ten blocks cover the result array: row `r` is in the block of point `r / 5000`. -/
theorem cover4 (i : S50000x16.Idx) : ∃ t : Fin cfg4.N, (cfg4.win 3).flush t = true ∧ i ∈ ((cfg4.win 3).blk t).view.set := by
  have hi0 : (i 0).val < 50000 := (i 0).isLt
  have hi1 : (i 1).val < 16 := (i 1).isLt
  have hN : grid4.N = 10 := N_4
  let t : Fin cfg4.N := ⟨(i 0).val / 5000, by show (i 0).val / 5000 < grid4.N; omega⟩
  obtain ⟨e00, e01, e10, e11, e20, e21, e30, e31⟩ := idx4 t
  have htv : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 16 ≤ (i 1).val ∧ (i 1).val < win4_3.index t (1 : Fin 2) * 16 + 16; omega

/-- THE RESULT ARRAY after the call: the epilogue of the arrays the call was entered with. -/
theorem final4 (c : Dev nD) : (dat4 V c).arrAt 3 cfg4.N = layer4 V c :=
  (dat4 V c).arrAt_eq_of_cover 3 _ (fun t _ => flushed4 V c t) cover4

end Cert.KernelIdeal.Blocks

end
-- ==== Proof.GcnNetwork.lean ====
/-
  The three-layer graph convolution network as ONE function, over the per-row scales and the two aggregation maps taken as
  parameters: rows scaled by the source-side scale; aggregated; first convolution layer (which also applies the source-side
  scale the next layer wants); aggregated; second convolution layer; projected from `k` to `d` columns; aggregated at the
  narrow width; the epilogue. The aggregation (a gather along the edges' sources followed by a scatter-add to their
  destinations) enters only as a map of arrays: two programs that spell it with the same operations agree on it by
  definition, and nothing about which rows an edge list names is ever needed.
-/
import proofs.«157035_j71597104824805_1_alg».proof.Proof.LibGraphConv

noncomputable section

namespace Cert.Proof.GraphConv

open Idealize.ShloMosaic

/-- The network: `ns`, `nd` the per-row scales, `agg` the aggregation of `k`-wide rows, `agg'` of `d`-wide rows. -/
def network {n k d : ℕ} (ns nd : Fin n → EReal)
    (agg : FVec Ideal ⟨2, ![n, k]⟩ .f32 → FVec Ideal ⟨2, ![n, k]⟩ .f32)
    (agg' : FVec Ideal ⟨2, ![n, d]⟩ .f32 → FVec Ideal ⟨2, ![n, d]⟩ .f32)
    (X : FVec Ideal ⟨2, ![n, k]⟩ .f32) (W0 : FVec Ideal ⟨2, ![k, k]⟩ .f32) (b0 : Fin k → EReal)
    (W1 : FVec Ideal ⟨2, ![k, k]⟩ .f32) (b1 : Fin k → EReal) (W2 : FVec Ideal ⟨2, ![k, d]⟩ .f32) (b2 : Fin d → EReal)
    (ε : EReal) : FVec Ideal ⟨2, ![n, d]⟩ .f32 :=
  biasAct (agg' (project (convLayer (agg (convLayer (agg (scaleRows X ns)) ns nd W0 b0)) ns nd W1 b1) W2)) nd b2 ε

/-! ## The layers respect equality of their arguments, the row functions pointwise -/

theorem scaleRows_congr {n d : ℕ} {X X' : FVec Ideal ⟨2, ![n, d]⟩ .f32} {s s' : Fin n → EReal}
    (hX : X = X') (hs : ∀ r, s r = s' r) : scaleRows X s = scaleRows X' s' := by
  obtain rfl := hX
  obtain rfl := funext hs
  rfl

theorem convLayer_congr {n k d : ℕ} {A A' : FVec Ideal ⟨2, ![n, k]⟩ .f32} {ns ns' nd nd' : Fin n → EReal}
    {W W' : FVec Ideal ⟨2, ![k, d]⟩ .f32} {b b' : Fin d → EReal}
    (hA : A = A') (hns : ∀ r, ns r = ns' r) (hnd : ∀ r, nd r = nd' r) (hW : W = W') (hb : ∀ j, b j = b' j) :
    convLayer A ns nd W b = convLayer A' ns' nd' W' b' := by
  obtain rfl := hA
  obtain rfl := hW
  obtain rfl := funext hns
  obtain rfl := funext hnd
  obtain rfl := funext hb
  rfl

theorem project_congr {n k d : ℕ} {X X' : FVec Ideal ⟨2, ![n, k]⟩ .f32} {W W' : FVec Ideal ⟨2, ![k, d]⟩ .f32}
    (hX : X = X') (hW : W = W') : project X W = project X' W' := by
  obtain rfl := hX
  obtain rfl := hW
  rfl

theorem biasAct_congr {n d : ℕ} {A A' : FVec Ideal ⟨2, ![n, d]⟩ .f32} {nd nd' : Fin n → EReal} {b b' : Fin d → EReal}
    (ε : EReal) (hA : A = A') (hnd : ∀ r, nd r = nd' r) (hb : ∀ j, b j = b' j) :
    biasAct A nd b ε = biasAct A' nd' b' ε := by
  obtain rfl := hA
  obtain rfl := funext hnd
  obtain rfl := funext hb
  rfl

end Cert.Proof.GraphConv

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.KernelValue.lean ====
/-
  What the idealized kernel computes. The contents of the TensorCore's buffers at the boundaries of @main's segments are a
  fold from the launch memory (`Gen.W0` … `Gen.W13`). Followed one boundary at a time for the buffers the result depends on:
  the host prologue leaves the two columns of degree scales (and the two side by side); each pallas_call leaves its result
  array at its layer of the arrays it was entered with (the block modules) and every other buffer alone; each host stretch
  between two calls aggregates the previous call's result along the edges and reshapes the next bias; nothing ever writes
  an argument. At the last boundary the result buffer holds the network of `GcnNetwork` of the arguments.
-/
import proofs.«157035_j71597104824805_1_alg».proof.Proof.Gen.KernelIdeal.Frame
import proofs.«157035_j71597104824805_1_alg».proof.Proof.KernelHost
import proofs.«157035_j71597104824805_1_alg».proof.Proof.KernelPrologue
import proofs.«157035_j71597104824805_1_alg».proof.Proof.Block0
import proofs.«157035_j71597104824805_1_alg».proof.Proof.Block1
import proofs.«157035_j71597104824805_1_alg».proof.Proof.Block2
import proofs.«157035_j71597104824805_1_alg».proof.Proof.Block3
import proofs.«157035_j71597104824805_1_alg».proof.Proof.Block4
import proofs.«157035_j71597104824805_1_alg».proof.Proof.GcnNetwork
import proofs.«157035_j71597104824805_1_alg».proof.Proof.LibConcatAt
import Idealize.ShloMosaic.Lib.StableHlo.Run
import Idealize.ShloMosaic.Lib.ValueLayout

-- the local notations below mention the section variables `m` and `c`
set_option quotPrecheck false
set_option maxRecDepth 16384

noncomputable section

namespace Cert.KernelIdeal.Chain

open Cert.KernelIdeal Cert.KernelIdeal.Gen Idealize.ShloMosaic Idealize.ShloMosaic.TcCoe
open Idealize.ShloMosaic.ValueIdx Idealize.SL.Sem Idealize.ShloMosaic.StableHlo Cert.Proof.GraphConv
open Idealize.ShloMosaic.Pipeline (Dat)

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
/-- The source-side and destination-side scale of every node. -/
local notation "ns" => (fun r : Fin 50000 => Host.degNorm x1 (ix2 r (0 : Fin 1)))
local notation "nd" => (fun r : Fin 50000 => Host.degNorm x2 (ix2 r (0 : Fin 1)))

/-! ## The host prologue: boundaries 0 to 5 -/

theorem arg5_0 : W5 m ρ c (Proc.devRef .tc main_arg0) = x0 := by
  show StableHlo.after hostOps0_4 (StableHlo.after hostOps0_3 (StableHlo.after hostOps0_2 (StableHlo.after hostOps0_1
    (StableHlo.after hostOps0 (W0 m ρ c))))) (Proc.devRef .tc main_arg0) = _
  after_results
  all_goals rfl

theorem arg5_1 : W5 m ρ c (Proc.devRef .tc main_arg1) = x1 := by
  show StableHlo.after hostOps0_4 (StableHlo.after hostOps0_3 (StableHlo.after hostOps0_2 (StableHlo.after hostOps0_1
    (StableHlo.after hostOps0 (W0 m ρ c))))) (Proc.devRef .tc main_arg1) = _
  after_results
  all_goals rfl

theorem arg5_2 : W5 m ρ c (Proc.devRef .tc main_arg2) = x2 := by
  show StableHlo.after hostOps0_4 (StableHlo.after hostOps0_3 (StableHlo.after hostOps0_2 (StableHlo.after hostOps0_1
    (StableHlo.after hostOps0 (W0 m ρ c))))) (Proc.devRef .tc main_arg2) = _
  after_results
  all_goals rfl

theorem arg5_3 : W5 m ρ c (Proc.devRef .tc main_arg3) = x3 := by
  show StableHlo.after hostOps0_4 (StableHlo.after hostOps0_3 (StableHlo.after hostOps0_2 (StableHlo.after hostOps0_1
    (StableHlo.after hostOps0 (W0 m ρ c))))) (Proc.devRef .tc main_arg3) = _
  after_results
  all_goals rfl

theorem arg5_4 : W5 m ρ c (Proc.devRef .tc main_arg4) = x4 := by
  show StableHlo.after hostOps0_4 (StableHlo.after hostOps0_3 (StableHlo.after hostOps0_2 (StableHlo.after hostOps0_1
    (StableHlo.after hostOps0 (W0 m ρ c))))) (Proc.devRef .tc main_arg4) = _
  after_results
  all_goals rfl

theorem arg5_5 : W5 m ρ c (Proc.devRef .tc main_arg5) = x5 := by
  show StableHlo.after hostOps0_4 (StableHlo.after hostOps0_3 (StableHlo.after hostOps0_2 (StableHlo.after hostOps0_1
    (StableHlo.after hostOps0 (W0 m ρ c))))) (Proc.devRef .tc main_arg5) = _
  after_results
  all_goals rfl

theorem arg5_6 : W5 m ρ c (Proc.devRef .tc main_arg6) = x6 := by
  show StableHlo.after hostOps0_4 (StableHlo.after hostOps0_3 (StableHlo.after hostOps0_2 (StableHlo.after hostOps0_1
    (StableHlo.after hostOps0 (W0 m ρ c))))) (Proc.devRef .tc main_arg6) = _
  after_results
  all_goals rfl

theorem arg5_7 : W5 m ρ c (Proc.devRef .tc main_arg7) = x7 := by
  show StableHlo.after hostOps0_4 (StableHlo.after hostOps0_3 (StableHlo.after hostOps0_2 (StableHlo.after hostOps0_1
    (StableHlo.after hostOps0 (W0 m ρ c))))) (Proc.devRef .tc main_arg7) = _
  after_results
  all_goals rfl

theorem arg5_8 : W5 m ρ c (Proc.devRef .tc main_arg8) = x8 := by
  show StableHlo.after hostOps0_4 (StableHlo.after hostOps0_3 (StableHlo.after hostOps0_2 (StableHlo.after hostOps0_1
    (StableHlo.after hostOps0 (W0 m ρ c))))) (Proc.devRef .tc main_arg8) = _
  after_results
  all_goals rfl

/-- Column 0 of the two-column array is the source-side scale. -/
theorem v21_5_col0 (r : Fin 50000) : (W5 m ρ c (Proc.devRef .tc main_v21) (ix2 r (0 : Fin 2)) : EReal) = Host.degNorm x1 (ix2 r (0 : Fin 1)) := by
  rw [v21_5]
  exact Cert.Proof.ConcatAt.pair_left (Host.degNorm x1) (Host.degNorm x2) concatenates_S50000x1_S50000x1_S50000x2_d1
    (ix2 r (0 : Fin 2)) r (0 : Fin 1) rfl rfl

/-- Column 1 of the two-column array is the destination-side scale. -/
theorem v21_5_col1 (r : Fin 50000) : (W5 m ρ c (Proc.devRef .tc main_v21) (ix2 r (1 : Fin 2)) : EReal) = Host.degNorm x2 (ix2 r (0 : Fin 1)) := by
  rw [v21_5]
  exact Cert.Proof.ConcatAt.pair_right (Host.degNorm x1) (Host.degNorm x2) concatenates_S50000x1_S50000x1_S50000x2_d1
    (ix2 r (1 : Fin 2)) r (0 : Fin 1) rfl rfl

/-! ## The first call (rows scaled): boundary 6 -/

theorem out6 : W6 m ρ c (Proc.devRef .tc main_v22) = scaleRows x0 ns :=
  (W6_arr m ρ c 2).trans ((Blocks.final0 (V5 m ρ) c).trans
    (scaleRows_congr (arg5_0 m ρ c) (fun r => congrFun (v13_5 m ρ c) (ix2 r (0 : Fin 1)))))

theorem arg6_1 : W6 m ρ c (Proc.devRef .tc main_arg1) = x1 :=
  (W6_of_ne m ρ c main_arg1 (by decide)).trans (arg5_1 m ρ c)
theorem arg6_2 : W6 m ρ c (Proc.devRef .tc main_arg2) = x2 :=
  (W6_of_ne m ρ c main_arg2 (by decide)).trans (arg5_2 m ρ c)
theorem arg6_3 : W6 m ρ c (Proc.devRef .tc main_arg3) = x3 :=
  (W6_of_ne m ρ c main_arg3 (by decide)).trans (arg5_3 m ρ c)
theorem arg6_4 : W6 m ρ c (Proc.devRef .tc main_arg4) = x4 :=
  (W6_of_ne m ρ c main_arg4 (by decide)).trans (arg5_4 m ρ c)
theorem arg6_5 : W6 m ρ c (Proc.devRef .tc main_arg5) = x5 :=
  (W6_of_ne m ρ c main_arg5 (by decide)).trans (arg5_5 m ρ c)
theorem arg6_6 : W6 m ρ c (Proc.devRef .tc main_arg6) = x6 :=
  (W6_of_ne m ρ c main_arg6 (by decide)).trans (arg5_6 m ρ c)
theorem arg6_7 : W6 m ρ c (Proc.devRef .tc main_arg7) = x7 :=
  (W6_of_ne m ρ c main_arg7 (by decide)).trans (arg5_7 m ρ c)
theorem arg6_8 : W6 m ρ c (Proc.devRef .tc main_arg8) = x8 :=
  (W6_of_ne m ρ c main_arg8 (by decide)).trans (arg5_8 m ρ c)
theorem v20_6 : W6 m ρ c (Proc.devRef .tc main_v20) = Host.degNorm x2 :=
  (W6_of_ne m ρ c main_v20 (by decide)).trans (v20_5 m ρ c)
theorem v21_6 : W6 m ρ c (Proc.devRef .tc main_v21) = W5 m ρ c (Proc.devRef .tc main_v21) :=
  W6_of_ne m ρ c main_v21 (by decide)

/-! ## Aggregation and the first bias row: boundary 7 -/

theorem arg7_1 : W7 m ρ c (Proc.devRef .tc main_arg1) = x1 := by
  refine Eq.trans ?_ (arg6_1 m ρ c)
  show StableHlo.after hostOps1 (W6 m ρ c) (Proc.devRef .tc main_arg1) = _
  after_results
theorem arg7_2 : W7 m ρ c (Proc.devRef .tc main_arg2) = x2 := by
  refine Eq.trans ?_ (arg6_2 m ρ c)
  show StableHlo.after hostOps1 (W6 m ρ c) (Proc.devRef .tc main_arg2) = _
  after_results
theorem arg7_3 : W7 m ρ c (Proc.devRef .tc main_arg3) = x3 := by
  refine Eq.trans ?_ (arg6_3 m ρ c)
  show StableHlo.after hostOps1 (W6 m ρ c) (Proc.devRef .tc main_arg3) = _
  after_results
theorem arg7_5 : W7 m ρ c (Proc.devRef .tc main_arg5) = x5 := by
  refine Eq.trans ?_ (arg6_5 m ρ c)
  show StableHlo.after hostOps1 (W6 m ρ c) (Proc.devRef .tc main_arg5) = _
  after_results
theorem arg7_6 : W7 m ρ c (Proc.devRef .tc main_arg6) = x6 := by
  refine Eq.trans ?_ (arg6_6 m ρ c)
  show StableHlo.after hostOps1 (W6 m ρ c) (Proc.devRef .tc main_arg6) = _
  after_results
theorem arg7_7 : W7 m ρ c (Proc.devRef .tc main_arg7) = x7 := by
  refine Eq.trans ?_ (arg6_7 m ρ c)
  show StableHlo.after hostOps1 (W6 m ρ c) (Proc.devRef .tc main_arg7) = _
  after_results
theorem arg7_8 : W7 m ρ c (Proc.devRef .tc main_arg8) = x8 := by
  refine Eq.trans ?_ (arg6_8 m ρ c)
  show StableHlo.after hostOps1 (W6 m ρ c) (Proc.devRef .tc main_arg8) = _
  after_results
theorem v20_7 : W7 m ρ c (Proc.devRef .tc main_v20) = Host.degNorm x2 := by
  refine Eq.trans ?_ (v20_6 m ρ c)
  show StableHlo.after hostOps1 (W6 m ρ c) (Proc.devRef .tc main_v20) = _
  after_results
theorem v21_7 : W7 m ρ c (Proc.devRef .tc main_v21) = W5 m ρ c (Proc.devRef .tc main_v21) := by
  refine Eq.trans ?_ (v21_6 m ρ c)
  show StableHlo.after hostOps1 (W6 m ρ c) (Proc.devRef .tc main_v21) = _
  after_results

set_option maxHeartbeats 4000000 in
/-- The scaled rows aggregated along the edges. -/
theorem v32_7 : W7 m ρ c (Proc.devRef .tc main_v32) = Host.aggregate (scaleRows x0 ns) x1 x2 := by
  have h : W7 m ρ c (Proc.devRef .tc main_v32) = Host.aggregate (W6 m ρ c (Proc.devRef .tc main_v22)) (W6 m ρ c (Proc.devRef .tc main_arg1)) (W6 m ρ c (Proc.devRef .tc main_arg2)) := by
    show StableHlo.after hostOps1 (W6 m ρ c) (Proc.devRef .tc main_v32) = _
    after_results_simp
    all_goals rfl
  rw [h, out6, arg6_1, arg6_2]

/-- The first bias vector as a row. -/
theorem v33_7 (j : Fin 128) : (W7 m ρ c (Proc.devRef .tc main_v33) (ix2 (0 : Fin 1) j) : EReal) = x4 (ix1 j) := by
  have h : W7 m ρ c (Proc.devRef .tc main_v33) = shapeCast S1x128 (W6 m ρ c (Proc.devRef .tc main_arg4)) shapeCasts_S128_S1x128 := by
    show StableHlo.after hostOps1 (W6 m ρ c) (Proc.devRef .tc main_v33) = _
    after_results
    all_goals rfl
  rw [h, arg6_4]
  exact shapeCast_a_1a_apply x4 shapeCasts_S128_S1x128 0 j

/-! ## The second call (first convolution layer): boundary 8 -/

theorem out8 : W8 m ρ c (Proc.devRef .tc main_v34)
    = convLayer (Host.aggregate (scaleRows x0 ns) x1 x2) ns nd x3 (fun j => x4 (ix1 j)) :=
  (W8_arr m ρ c 4).trans ((Blocks.final1 (V7 m ρ) c).trans
    (convLayer_congr (v32_7 m ρ c)
      (fun r => (congrFun (v21_7 m ρ c) (ix2 r (0 : Fin 2))).trans (v21_5_col0 m ρ c r))
      (fun r => (congrFun (v21_7 m ρ c) (ix2 r (1 : Fin 2))).trans (v21_5_col1 m ρ c r))
      (arg7_3 m ρ c) (fun j => v33_7 m ρ c j)))

theorem arg8_1 : W8 m ρ c (Proc.devRef .tc main_arg1) = x1 :=
  (W8_of_ne m ρ c main_arg1 (by decide)).trans (arg7_1 m ρ c)
theorem arg8_2 : W8 m ρ c (Proc.devRef .tc main_arg2) = x2 :=
  (W8_of_ne m ρ c main_arg2 (by decide)).trans (arg7_2 m ρ c)
theorem arg8_5 : W8 m ρ c (Proc.devRef .tc main_arg5) = x5 :=
  (W8_of_ne m ρ c main_arg5 (by decide)).trans (arg7_5 m ρ c)
theorem arg8_6 : W8 m ρ c (Proc.devRef .tc main_arg6) = x6 :=
  (W8_of_ne m ρ c main_arg6 (by decide)).trans (arg7_6 m ρ c)
theorem arg8_7 : W8 m ρ c (Proc.devRef .tc main_arg7) = x7 :=
  (W8_of_ne m ρ c main_arg7 (by decide)).trans (arg7_7 m ρ c)
theorem arg8_8 : W8 m ρ c (Proc.devRef .tc main_arg8) = x8 :=
  (W8_of_ne m ρ c main_arg8 (by decide)).trans (arg7_8 m ρ c)
theorem v20_8 : W8 m ρ c (Proc.devRef .tc main_v20) = Host.degNorm x2 :=
  (W8_of_ne m ρ c main_v20 (by decide)).trans (v20_7 m ρ c)
/-- The two-column array of scales is an input of the call: the call leaves it as it found it. -/
theorem v21_8 : W8 m ρ c (Proc.devRef .tc main_v21) = W5 m ρ c (Proc.devRef .tc main_v21) :=
  (W8_arr m ρ c 1).trans ((((dat1 (V7 m ρ) c).arrAt_in 1 rfl _).trans (A_eq1 (V7 m ρ) c 1)).trans (v21_7 m ρ c))

/-! ## Aggregation and the second bias row: boundary 9 -/

theorem arg9_1 : W9 m ρ c (Proc.devRef .tc main_arg1) = x1 := by
  refine Eq.trans ?_ (arg8_1 m ρ c)
  show StableHlo.after hostOps2 (W8 m ρ c) (Proc.devRef .tc main_arg1) = _
  after_results
theorem arg9_2 : W9 m ρ c (Proc.devRef .tc main_arg2) = x2 := by
  refine Eq.trans ?_ (arg8_2 m ρ c)
  show StableHlo.after hostOps2 (W8 m ρ c) (Proc.devRef .tc main_arg2) = _
  after_results
theorem arg9_5 : W9 m ρ c (Proc.devRef .tc main_arg5) = x5 := by
  refine Eq.trans ?_ (arg8_5 m ρ c)
  show StableHlo.after hostOps2 (W8 m ρ c) (Proc.devRef .tc main_arg5) = _
  after_results
theorem arg9_7 : W9 m ρ c (Proc.devRef .tc main_arg7) = x7 := by
  refine Eq.trans ?_ (arg8_7 m ρ c)
  show StableHlo.after hostOps2 (W8 m ρ c) (Proc.devRef .tc main_arg7) = _
  after_results
theorem arg9_8 : W9 m ρ c (Proc.devRef .tc main_arg8) = x8 := by
  refine Eq.trans ?_ (arg8_8 m ρ c)
  show StableHlo.after hostOps2 (W8 m ρ c) (Proc.devRef .tc main_arg8) = _
  after_results
theorem v20_9 : W9 m ρ c (Proc.devRef .tc main_v20) = Host.degNorm x2 := by
  refine Eq.trans ?_ (v20_8 m ρ c)
  show StableHlo.after hostOps2 (W8 m ρ c) (Proc.devRef .tc main_v20) = _
  after_results
theorem v21_9 : W9 m ρ c (Proc.devRef .tc main_v21) = W5 m ρ c (Proc.devRef .tc main_v21) := by
  refine Eq.trans ?_ (v21_8 m ρ c)
  show StableHlo.after hostOps2 (W8 m ρ c) (Proc.devRef .tc main_v21) = _
  after_results

set_option maxHeartbeats 4000000 in
theorem v44_9 : W9 m ρ c (Proc.devRef .tc main_v44)
    = Host.aggregate (convLayer (Host.aggregate (scaleRows x0 ns) x1 x2) ns nd x3 (fun j => x4 (ix1 j))) x1 x2 := by
  have h : W9 m ρ c (Proc.devRef .tc main_v44) = Host.aggregate (W8 m ρ c (Proc.devRef .tc main_v34)) (W8 m ρ c (Proc.devRef .tc main_arg1)) (W8 m ρ c (Proc.devRef .tc main_arg2)) := by
    show StableHlo.after hostOps2 (W8 m ρ c) (Proc.devRef .tc main_v44) = _
    after_results_simp
    all_goals rfl
  rw [h, out8, arg8_1, arg8_2]

theorem v45_9 (j : Fin 128) : (W9 m ρ c (Proc.devRef .tc main_v45) (ix2 (0 : Fin 1) j) : EReal) = x6 (ix1 j) := by
  have h : W9 m ρ c (Proc.devRef .tc main_v45) = shapeCast S1x128 (W8 m ρ c (Proc.devRef .tc main_arg6)) shapeCasts_S128_S1x128 := by
    show StableHlo.after hostOps2 (W8 m ρ c) (Proc.devRef .tc main_v45) = _
    after_results
    all_goals rfl
  rw [h, arg8_6]
  exact shapeCast_a_1a_apply x6 shapeCasts_S128_S1x128 0 j

/-! ## The third call (second convolution layer): boundary 10 -/

theorem out10 : W10 m ρ c (Proc.devRef .tc main_v46)
    = convLayer (Host.aggregate (convLayer (Host.aggregate (scaleRows x0 ns) x1 x2) ns nd x3 (fun j => x4 (ix1 j))) x1 x2)
        ns nd x5 (fun j => x6 (ix1 j)) :=
  (W10_arr m ρ c 4).trans ((Blocks.final2 (V9 m ρ) c).trans
    (convLayer_congr (v44_9 m ρ c)
      (fun r => (congrFun (v21_9 m ρ c) (ix2 r (0 : Fin 2))).trans (v21_5_col0 m ρ c r))
      (fun r => (congrFun (v21_9 m ρ c) (ix2 r (1 : Fin 2))).trans (v21_5_col1 m ρ c r))
      (arg9_5 m ρ c) (fun j => v45_9 m ρ c j)))

theorem arg10_1 : W10 m ρ c (Proc.devRef .tc main_arg1) = x1 :=
  (W10_of_ne m ρ c main_arg1 (by decide)).trans (arg9_1 m ρ c)
theorem arg10_2 : W10 m ρ c (Proc.devRef .tc main_arg2) = x2 :=
  (W10_of_ne m ρ c main_arg2 (by decide)).trans (arg9_2 m ρ c)
theorem arg10_7 : W10 m ρ c (Proc.devRef .tc main_arg7) = x7 :=
  (W10_of_ne m ρ c main_arg7 (by decide)).trans (arg9_7 m ρ c)
theorem arg10_8 : W10 m ρ c (Proc.devRef .tc main_arg8) = x8 :=
  (W10_of_ne m ρ c main_arg8 (by decide)).trans (arg9_8 m ρ c)
theorem v20_10 : W10 m ρ c (Proc.devRef .tc main_v20) = Host.degNorm x2 :=
  (W10_of_ne m ρ c main_v20 (by decide)).trans (v20_9 m ρ c)

/-! ## The fourth call (projection): boundary 11 -/

theorem out11 : W11 m ρ c (Proc.devRef .tc main_v47)
    = project (convLayer (Host.aggregate (convLayer (Host.aggregate (scaleRows x0 ns) x1 x2) ns nd x3 (fun j => x4 (ix1 j))) x1 x2)
        ns nd x5 (fun j => x6 (ix1 j))) x7 :=
  (W11_arr m ρ c 2).trans ((Blocks.final3 (V10 m ρ) c).trans (project_congr (out10 m ρ c) (arg10_7 m ρ c)))

theorem arg11_1 : W11 m ρ c (Proc.devRef .tc main_arg1) = x1 :=
  (W11_of_ne m ρ c main_arg1 (by decide)).trans (arg10_1 m ρ c)
theorem arg11_2 : W11 m ρ c (Proc.devRef .tc main_arg2) = x2 :=
  (W11_of_ne m ρ c main_arg2 (by decide)).trans (arg10_2 m ρ c)
theorem arg11_8 : W11 m ρ c (Proc.devRef .tc main_arg8) = x8 :=
  (W11_of_ne m ρ c main_arg8 (by decide)).trans (arg10_8 m ρ c)
theorem v20_11 : W11 m ρ c (Proc.devRef .tc main_v20) = Host.degNorm x2 :=
  (W11_of_ne m ρ c main_v20 (by decide)).trans (v20_10 m ρ c)

/-! ## Aggregation at the narrow width and the last bias row: boundary 12 -/

theorem v20_12 : W12 m ρ c (Proc.devRef .tc main_v20) = Host.degNorm x2 := by
  refine Eq.trans ?_ (v20_11 m ρ c)
  show StableHlo.after hostOps4 (W11 m ρ c) (Proc.devRef .tc main_v20) = _
  after_results

set_option maxHeartbeats 4000000 in
theorem v57_12 : W12 m ρ c (Proc.devRef .tc main_v57)
    = Host.aggregate' (project (convLayer (Host.aggregate (convLayer (Host.aggregate (scaleRows x0 ns) x1 x2) ns nd x3 (fun j => x4 (ix1 j))) x1 x2)
        ns nd x5 (fun j => x6 (ix1 j))) x7) x1 x2 := by
  have h : W12 m ρ c (Proc.devRef .tc main_v57) = Host.aggregate' (W11 m ρ c (Proc.devRef .tc main_v47)) (W11 m ρ c (Proc.devRef .tc main_arg1)) (W11 m ρ c (Proc.devRef .tc main_arg2)) := by
    show StableHlo.after hostOps4 (W11 m ρ c) (Proc.devRef .tc main_v57) = _
    after_results_simp
    all_goals rfl
  rw [h, out11, arg11_1, arg11_2]

theorem v58_12 (j : Fin 16) : (W12 m ρ c (Proc.devRef .tc main_v58) (ix2 (0 : Fin 1) j) : EReal) = x8 (ix1 j) := by
  have h : W12 m ρ c (Proc.devRef .tc main_v58) = shapeCast S1x16 (W11 m ρ c (Proc.devRef .tc main_arg8)) shapeCasts_S16_S1x16 := by
    show StableHlo.after hostOps4 (W11 m ρ c) (Proc.devRef .tc main_v58) = _
    after_results
    all_goals rfl
  rw [h, arg11_8]
  exact shapeCast_a_1a_apply x8 shapeCasts_S16_S1x16 0 j

/-! ## The fifth call (epilogue): boundary 13, the result -/

/-- THE KERNEL'S RESULT: the network of the arguments, the scales `degNorm` of the two edge-end lists and the
    aggregation along the edges. -/
theorem result : W13 m ρ c (Proc.devRef .tc main_v59)
    = network ns nd (fun H => Host.aggregate H x1 x2) (fun H => Host.aggregate' H x1 x2)
        x0 x3 (fun j => x4 (ix1 j)) x5 (fun j => x6 (ix1 j)) x7 (fun j => x8 (ix1 j)) (Ideal.ofBits .f32 0x322BCC77#32) :=
  (W13_arr m ρ c 3).trans ((Blocks.final4 (V12 m ρ) c).trans
    (biasAct_congr _ (v57_12 m ρ c) (fun r => congrFun (v20_12 m ρ c) (ix2 r (0 : Fin 1))) (fun j => v58_12 m ρ c j)))

end Cert.KernelIdeal.Chain

end
-- ==== Proof.RefHost.lean ====
/-
  The host operations that the idealized reference shares with the other program of this certificate, as named functions of whole arrays:
  * `degNorm x`: for every node the number `d` of entries of the edge-end list `x` that name it (ones scatter-added to the
    named nodes), then `d^(-1/2)` where `d > 0` (the root's argument is `max d 1`) and zero where `d = 0`, as a column;
  * `srcIdx x`: the list of source nodes as a gather reads it (a negative entry counted from the end);
  * `aggregate H x1 x2` (rows of 128 entries) and `aggregate' H x1 x2` (rows of 16): row `x1 e` of `H` gathered for every
    edge `e` and scatter-added into row `x2 e` of a zero array.
-/
import proofs.«157035_j71597104824805_1_alg».proof.Proof.Gen.ReferenceIdeal
import Idealize.ShloMosaic.PureOps.Ideal

noncomputable section

namespace Cert.ReferenceIdeal.Host

open Cert.ReferenceIdeal Cert.ReferenceIdeal.Facts₀ Idealize.ShloMosaic

/-- The per-node scale of one side of the edges. -/
def degNorm (x : IVec S600000 32) : FVec Ideal S50000x1 .f32 :=
  broadcastInDim S50000x1 ![0] bcast_S50000_S50000x1_0 (select (cmpf (F := Ideal) .ogt (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x) (broadcastInDim S600000 ![] bcast_S_S600000 (constant (F := Ideal) S_ .f32 0x3F800000#32))) (broadcastInDim S50000 ![] bcast_S_S50000 (constant (F := Ideal) S_ .f32 0x00000000#32))) (Host.rsqrt (F := Ideal) (maximumf (F := Ideal) (Host.scatterAdd (F := Ideal) scatter_S50000_S600000x1_S600000_n_0_0_1 (broadcastInDim S50000 ![] bcast_S_S50000 (constant (F := Ideal) S_ .f32 0x00000000#32)) (broadcastInDim S600000x1 ![0] bcast_S600000_S600000x1_0 x) (broadcastInDim S600000 ![] bcast_S_S600000 (constant (F := Ideal) S_ .f32 0x3F800000#32))) (broadcastInDim S50000 ![] bcast_S_S50000 (constant (F := Ideal) S_ .f32 0x3F800000#32)))) (broadcastInDim S50000 ![] bcast_S_S50000 (id (constant (F := Ideal) S_ .f32 0x00000000#32))))

/-- The source nodes as the gather's start indices. -/
def srcIdx (x1 : IVec S600000 32) : IVec S600000x1 32 :=
  broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 50000#32))) x1)

/-- Aggregation along the edges, rows of 128 entries. -/
def aggregate (H : FVec Ideal S50000x128 .f32) (x1 x2 : IVec S600000 32) :
    FVec Ideal S50000x128 .f32 :=
  Host.scatterAdd (F := Ideal) scatter_S50000x128_S600000x1_S600000x128_1_0_0_1 (broadcastInDim S50000x128 ![] bcast_S_S50000x128 (constant (F := Ideal) S_ .f32 0x00000000#32)) (broadcastInDim S600000x1 ![0] bcast_S600000_S600000x1_0 x2) (Host.gather gather_S50000x128_S600000x1_S600000x128_1_0_n_n_0_1_1128 H (srcIdx x1))

/-- Aggregation along the edges, rows of 16 entries. -/
def aggregate' (H : FVec Ideal S50000x16 .f32) (x1 x2 : IVec S600000 32) :
    FVec Ideal S50000x16 .f32 :=
  Host.scatterAdd (F := Ideal) scatter_S50000x16_S600000x1_S600000x16_1_0_0_1 (broadcastInDim S50000x16 ![] bcast_S_S50000x16 (constant (F := Ideal) S_ .f32 0x00000000#32)) (broadcastInDim S600000x1 ![0] bcast_S600000_S600000x1_0 x2) (Host.gather gather_S50000x16_S600000x1_S600000x16_1_0_n_n_0_1_116 H (srcIdx x1))

end Cert.ReferenceIdeal.Host

end
-- ==== Proof.RefValue.lean ====
/-
  What the idealized reference computes, as the network of `GcnNetwork`: its run ends with the result at ONE composed term
  of the arguments, and that term is, layer by layer, the host's spelling of `scaleRows`, `convLayer` (twice),
  `project` and `biasAct` around the aggregation and the degree scales.
-/
import proofs.«157035_j71597104824805_1_alg».proof.Proof.RefRunPatched
import proofs.«157035_j71597104824805_1_alg».proof.Proof.RefHost
import proofs.«157035_j71597104824805_1_alg».proof.Proof.GcnNetwork

-- the local notations below mention the section variables `m` and `c`
set_option quotPrecheck false
set_option maxRecDepth 16384

noncomputable section

namespace Cert.ReferenceIdeal.RefValue

open Cert.ReferenceIdeal Cert.ReferenceIdeal.Facts₀ Idealize.ShloMosaic Idealize.ShloMosaic.TcCoe Idealize.ShloMosaic.ValueIdx
open Idealize.SL.Sem Cert.Proof.GraphConv

variable (m : (ℓ : Loc nD τ sig) → Buf (Elt Ideal) ℓ) (c : Dev nD)

/-- The host's spelling of the rows scaled. -/
def hScale (X : FVec Ideal S50000x128 .f32) (s : FVec Ideal S50000x1 .f32) :
    FVec Ideal S50000x128 .f32 :=
  mulf X (broadcastInDim S50000x128 ![0, 1] bcast_S50000x1_S50000x128_0_1 s)

/-- The host's spelling of one convolution layer after its aggregation. -/
def hConv (A : FVec Ideal S50000x128 .f32) (ns nd : FVec Ideal S50000x1 .f32)
    (W : FVec Ideal S128x128 .f32) (b : FVec Ideal S128 .f32) :
    FVec Ideal S50000x128 .f32 :=
  mulf (maximumf (addf (Host.dotGeneral dot_S50000x128_S128x128_S50000x128_1_0_0_1_n_n none (mulf A (broadcastInDim S50000x128 ![0, 1] bcast_S50000x1_S50000x128_0_1 nd)) W) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))) (broadcastInDim S50000x128 ![0, 1] bcast_S50000x1_S50000x128_0_1 ns)

/-- The host's spelling of the projection. -/
def hProject (X : FVec Ideal S50000x128 .f32) (W : FVec Ideal S128x16 .f32) :
    FVec Ideal S50000x16 .f32 :=
  Host.dotGeneral dot_S50000x128_S128x16_S50000x16_1_0_0_1_n_n none X W

/-- The host's spelling of the epilogue. -/
def hBiasAct (A : FVec Ideal S50000x16 .f32) (nd : FVec Ideal S50000x1 .f32)
    (b : FVec Ideal S16 .f32) : FVec Ideal S50000x16 .f32 :=
  addf (Host.divf (broadcastInDim S50000x16 ![] bcast_S_S50000x16 (constant (F := Ideal) S_ .f32 0x3F800000#32)) (addf (broadcastInDim S50000x16 ![] bcast_S_S50000x16 (constant (F := Ideal) S_ .f32 0x3F800000#32)) (Host.exp (Host.negf (addf (mulf A (broadcastInDim S50000x16 ![0, 1] bcast_S50000x1_S50000x16_0_1 nd)) (broadcastInDim S50000x16 ![0, 1] bcast_S1x16_S50000x16_0_1 (broadcastInDim S1x16 ![1] bcast_S16_S1x16_1 b))))))) (broadcastInDim S50000x16 ![] bcast_S_S50000x16 (constant (F := Ideal) S_ .f32 0x322BCC77#32))

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)

/-- The printed dimension numbers of the 128 × 128 products are the plain ones. -/
theorem dot128_plain : dot_S50000x128_S128x128_S50000x128_1_0_0_1_n_n = DotDims.plain 50000 128 128 := rfl
/-- The printed dimension numbers of the 128 × 16 product are the plain ones. -/
theorem dot16_plain : dot_S50000x128_S128x16_S50000x16_1_0_0_1_n_n = DotDims.plain 50000 128 16 := rfl

/-- The reference's composed result term, with its layers and shared pieces named: by unfolding. -/
theorem res_named : ValueP.res_main_v84 (F := Ideal) m c
    = hBiasAct (Host.aggregate' (hProject (hConv (Host.aggregate (hConv (Host.aggregate (hScale x0 (Host.degNorm x1)) x1 x2)
        (Host.degNorm x1) (Host.degNorm x2) x3 x4) x1 x2) (Host.degNorm x1) (Host.degNorm x2) x5 x6) x7) x1 x2) (Host.degNorm x2) x8 := rfl

/-- The reference's result is the network of the arguments, the scales `degNorm` of the two edge-end lists and the
    aggregation along the edges. -/
theorem value : ValueP.res_main_v84 (F := Ideal) m c
    = network (fun r => Host.degNorm x1 (ix2 r (0 : Fin 1))) (fun r => Host.degNorm x2 (ix2 r (0 : Fin 1)))
        (fun H => Host.aggregate H x1 x2) (fun H => Host.aggregate' H x1 x2)
        x0 x3 (fun j => x4 (ix1 j)) x5 (fun j => x6 (ix1 j)) x7 (fun j => x8 (ix1 j)) (Ideal.ofBits .f32 0x322BCC77#32) := by
  rw [res_named]
  unfold hScale hConv hProject hBiasAct
  show _ = biasAct (Host.aggregate' (project (convLayer (Host.aggregate (convLayer (Host.aggregate
      (scaleRows x0 (fun r => Host.degNorm x1 (ix2 r (0 : Fin 1)))) x1 x2)
      (fun r => Host.degNorm x1 (ix2 r (0 : Fin 1))) (fun r => Host.degNorm x2 (ix2 r (0 : Fin 1))) x3 (fun j => x4 (ix1 j))) x1 x2)
      (fun r => Host.degNorm x1 (ix2 r (0 : Fin 1))) (fun r => Host.degNorm x2 (ix2 r (0 : Fin 1))) x5 (fun j => x6 (ix1 j))) x7) x1 x2)
      (fun r => Host.degNorm x2 (ix2 r (0 : Fin 1))) (fun j => x8 (ix1 j)) (Ideal.ofBits .f32 0x322BCC77#32)
  rw [dot128_plain, dot16_plain]
  rw [host_scale x0 (Host.degNorm x1) bcast_S50000x1_S50000x128_0_1]
  rw [host_conv _ (Host.degNorm x1) (Host.degNorm x2) x3 x4 bcast_S50000x1_S50000x128_0_1 bcast_S50000x1_S50000x128_0_1
    bcast_S128_S1x128_1 bcast_S1x128_S50000x128_0_1 bcast_S_S50000x128]
  rw [host_conv _ (Host.degNorm x1) (Host.degNorm x2) x5 x6 bcast_S50000x1_S50000x128_0_1 bcast_S50000x1_S50000x128_0_1
    bcast_S128_S1x128_1 bcast_S1x128_S50000x128_0_1 bcast_S_S50000x128]
  rw [host_project _ x7]
  rw [host_biasAct _ (Host.degNorm x2) x8 0x322BCC77#32 bcast_S50000x1_S50000x16_0_1 bcast_S16_S1x16_1 bcast_S1x16_S50000x16_0_1
    bcast_S_S50000x16]

end Cert.ReferenceIdeal.RefValue

end
-- ==== Proof.lean ====
/-
  A three-layer graph convolution network with symmetric degree normalisation, as a kernel of five pallas_calls among
  host operations against its plain jnp reference, on the extended reals.

  With `d_out v` / `d_in v` the number of edges leaving / entering node `v`, and `ns v = d_out v ^ (-1/2)`,
  `nd v = d_in v ^ (-1/2)` (zero at a node without such edges), both programs compute
    h₁ = relu ((agg (x ⊙ ns) ⊙ nd) · W₀ + b₀),  h₂ = relu ((agg (h₁ ⊙ ns) ⊙ nd) · W₁ + b₁),
    out = logistic (agg ((h₂ ⊙ ns) · W₂) ⊙ nd + b₂) + ε,
  where `agg` gathers a row for every edge at its source and adds it into the row of its destination, `⊙` scales row
  `v` by the scale of `v`, and ε is one f32 word both programs carry. The kernel computes the dense, row-wise parts in
  five pallas_calls over blocks of 5000 rows — rows scaled; a convolution layer after its aggregation, which also applies
  the next layer's `ns` (twice); the last layer's projection, taken before its aggregation; the epilogue — and leaves the
  degree scales and the aggregations to the same host operations the reference uses. On the extended reals a change of
  float format is the identity, a matrix product into a zero accumulator is the sum the host's `dot_general` is, the
  kernel's `logistic` is the reference's `1 / (1 + exp (−·))`, and every expression is written in the same order on
  both sides: no law of arithmetic is used and no entry needs to be finite. Each call's result array is its layer of the
  arrays the call was entered with because every block written back is the layer's restriction to the block's rows and
  the ten blocks cover the array; the aggregation is one map of arrays on both sides.
-/
import proofs.«157035_j71597104824805_1_alg».proof.Defs
import proofs.«157035_j71597104824805_1_alg».proof.Proof.Gen.Kernel
import proofs.«157035_j71597104824805_1_alg».proof.Proof.Gen.Kernel.Skeleton
import proofs.«157035_j71597104824805_1_alg».proof.Proof.Gen.Kernel.Launch
import proofs.«157035_j71597104824805_1_alg».proof.Proof.Gen.Kernel.Points
import proofs.«157035_j71597104824805_1_alg».proof.Proof.Gen.Kernel.Frame
import proofs.«157035_j71597104824805_1_alg».proof.Proof.Gen.KernelIdeal
import proofs.«157035_j71597104824805_1_alg».proof.Proof.Gen.KernelIdeal.Skeleton
import proofs.«157035_j71597104824805_1_alg».proof.Proof.Gen.KernelIdeal.Launch
import proofs.«157035_j71597104824805_1_alg».proof.Proof.Gen.KernelIdeal.Points
import proofs.«157035_j71597104824805_1_alg».proof.Proof.Gen.KernelIdeal.Frame
import proofs.«157035_j71597104824805_1_alg».proof.Proof.Gen.ReferenceIdeal
import proofs.«157035_j71597104824805_1_alg».proof.Proof.Gen.Pre_finite_inputs
import proofs.«157035_j71597104824805_1_alg».proof.Proof.KernelRun
import proofs.«157035_j71597104824805_1_alg».proof.Proof.KernelValue
import proofs.«157035_j71597104824805_1_alg».proof.Proof.RefRunPatched
import proofs.«157035_j71597104824805_1_alg».proof.Proof.RefValue
import Idealize.ShloMosaic.Adequacy
import Idealize.ShloMosaic.Init

noncomputable section

namespace Cert.Proof

open Idealize.ShloMosaic Idealize.ShloMosaic.TcCoe Idealize.SL.Sem

/-- The two programs spell the degree scale with the same operations. -/
theorem degNorm_eq : Cert.ReferenceIdeal.Host.degNorm = Cert.KernelIdeal.Host.degNorm := rfl
/-- The two programs spell the aggregation of 128-wide rows with the same operations. -/
theorem aggregate_eq : Cert.ReferenceIdeal.Host.aggregate = Cert.KernelIdeal.Host.aggregate := rfl
/-- The two programs spell the aggregation of 16-wide rows with the same operations. -/
theorem aggregate'_eq : Cert.ReferenceIdeal.Host.aggregate' = Cert.KernelIdeal.Host.aggregate' := rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the kernel's own text read on the extended reals. -/
theorem preserves : Cert.preserves_Kernel_KernelIdeal := trivial

/-- From memories agreeing on the arguments both programs end with the network of the arguments in their result
    buffers. -/
theorem algebraic : Cert.algebraic_KernelIdeal_ReferenceIdeal := by
  intro m ρ m' ρ' _ hagree
  refine ⟨fun c => Cert.KernelIdeal.Gen.W13 m ρ c (Proc.devRef .tc Cert.KernelIdeal.main_v59),
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  show Cert.ReferenceIdeal.ValueP.res_main_v84 (F := Ideal) m' c
    = Cert.KernelIdeal.Gen.W13 m ρ c (Proc.devRef .tc Cert.KernelIdeal.main_v59)
  rw [Cert.ReferenceIdeal.RefValue.value m' c, Cert.KernelIdeal.Chain.result m ρ c, h0, h1, h2, h3, h4, h5, h6, h7, h8,
    degNorm_eq, aggregate_eq, aggregate'_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
